-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v12)) (v1 : (c : Dev Cert.KernelIdeal.nD) → Buf (Elt Ideal) ((c.tc : Thread Cert.KernelIdeal.nD Cert.KernelIdeal.τ).loc Cert.KernelIdeal.main_v13)) (v2 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_v13) = v1 c
          ∧ r.2.mem ((c.tc : Thread Cert.KernelIdeal.nD Cert.KernelIdeal.τ).loc Cert.KernelIdeal.main_v14) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_v53) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x2 : Shape := ⟨2, ![65536, 2]⟩
abbrev S1024x2 : Shape := ⟨2, ![1024, 2]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S_ : Shape := ⟨0, ![]⟩

class Facts : Prop where
  bcast_S_S65536x2 : S_.BroadcastsInDim S65536x2 (![] : Fin 0 → Fin S65536x2.rank)
  reducesTo_S65536x2_S_d0_1 : S65536x2.ReducesTo [0, 1] S_
  h_S_ : 0 < S_.numel
  bcast_S_S1024x2 : S_.BroadcastsInDim S1024x2 (![] : Fin 0 → Fin S1024x2.rank)
  reducesTo_S1024x2_S_d0_1 : S1024x2.ReducesTo [0, 1] S_
  bcast_S_S1024 : S_.BroadcastsInDim S1024 (![] : Fin 0 → Fin S1024.rank)
  reducesTo_S1024_S_d0 : S1024.ReducesTo [0] S_
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_
  bcast_S_S1x512 : S_.BroadcastsInDim S1x512 (![] : Fin 0 → Fin S1x512.rank)
  reducesTo_S1x512_S_d0_1 : S1x512.ReducesTo [0, 1] S_
  bcast_S_S1 : S_.BroadcastsInDim S1 (![] : Fin 0 → Fin S1.rank)
  reducesTo_S1_S_d0 : S1.ReducesTo [0] S_

variable [Facts]

def fn_part1 {F : FTy → Type} [FloatOps F] (main_arg4 : FVec F S512 .f32) (main_arg5 : FVec F S1x512 .f32) (main_arg6 : FVec F S1 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S1x512 .f32 := Host.absf main_arg5
  let main_cst_8 : FVec F S_ .f32 := constant S_ .f32 0x7F800000#32
  let main_v25 : FVec F S1x512 .f32 := broadcastInDim S1x512 ![] bcast_S_S1x512 main_cst_8
  let main_v26 : IVec S1x512 1 := cmpf .olt main_v24 main_v25
  let main_c_9 : IVec S_ 1 := constantI S_ 1 1#1
  let main_v27 : IVec S_ 1 := (fun x v => Host.reduce IntOp.andi x v reducesTo_S1x512_S_d0_1 h_S_) main_v26 main_c_9
  let main_v28 : IVec S_ 1 := andi main_v23 main_v27
  let main_v29 : FVec F S1 .f32 := Host.absf main_arg6
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S65536x2 .f32) (main_arg1 : FVec F S1024x2 .f32) (main_arg2 : FVec F S1024 .f32) (main_arg3 : FVec F S512x1024 .f32) (main_arg4 : FVec F S512 .f32) (main_arg5 : FVec F S1x512 .f32) (main_arg6 : FVec F S1 .f32) : IVec S_ 1 :=
  let main_v0 : FVec F S65536x2 .f32 := Host.absf main_arg0
  let main_cst : FVec F S_ .f32 := constant S_ .f32 0x7F800000#32
  let main_v1 : FVec F S65536x2 .f32 := broadcastInDim S65536x2 ![] bcast_S_S65536x2 main_cst
  let main_v2 : IVec S65536x2 1 := cmpf .olt main_v0 main_v1
  let main_c : IVec S_ 1 := constantI S_ 1 1#1
  let main_v3 : IVec S_ 1 := (fun x v => Host.reduce IntOp.andi x v reducesTo_S65536x2_S_d0_1 h_S_) main_v2 main_c
  let main_v4 : FVec F S1024x2 .f32 := Host.absf main_arg1
  let main_cst_0 : FVec F S_ .f32 := constant S_ .f32 0x7F800000#32
  let main_v5 : FVec F S1024x2 .f32 := broadcastInDim S1024x2 ![] bcast_S_S1024x2 main_cst_0
  let main_v6 : IVec S1024x2 1 := cmpf .olt main_v4 main_v5
  let main_c_1 : IVec S_ 1 := constantI S_ 1 1#1
  let main_v7 : IVec S_ 1 := (fun x v => Host.reduce IntOp.andi x v reducesTo_S1024x2_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_v13 main_v16
-- ==== Kernel.lean ====
abbrev S65536x2 : Shape := ⟨2, ![65536, 2]⟩
abbrev S1024x2 : Shape := ⟨2, ![1024, 2]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S1024x1 : Shape := ⟨2, ![1024, 1]⟩
abbrev S1x1024 : Shape := ⟨2, ![1, 1024]⟩
abbrev S1024x512 : Shape := ⟨2, ![1024, 512]⟩
abbrev S1x1 : Shape := ⟨2, ![1, 1]⟩
abbrev S65536x3 : Shape := ⟨2, ![65536, 3]⟩
abbrev S1024x3 : Shape := ⟨2, ![1024, 3]⟩
abbrev S1024x1024 : Shape := ⟨2, ![1024, 1024]⟩
abbrev S65536x1 : Shape := ⟨2, ![65536, 1]⟩

abbrev nBuf : Space → Nat
  | .hbm => 22
  | .vmem => 11
  | .smem => 0
  | _ => 0

abbrev bufTy : (tb : Table) → Fin (tcTables nBuf tb) → BufTy
  | .hbm, ⟨0, _⟩ => ⟨S65536x2, .f32⟩
  | .hbm, ⟨1, _⟩ => ⟨S1024x2, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S1024x1, .f32⟩
  | .hbm, ⟨8, _⟩ => ⟨S1024, .f32⟩
  | .hbm, ⟨9, _⟩ => ⟨S1x1024, .f32⟩
  | .hbm, ⟨10, _⟩ => ⟨S1024x1, .f32⟩
  | .hbm, ⟨11, _⟩ => ⟨S1024, .f32⟩
  | .hbm, ⟨12, _⟩ => ⟨S1x1024, .f32⟩
  | .hbm, ⟨13, _⟩ => ⟨S1x1024, .f32⟩
  | .hbm, ⟨14, _⟩ => ⟨S1024x512, .f32⟩
  | .hbm, ⟨15, _⟩ => ⟨S1024x512, .bf16⟩
  | .hbm, ⟨16, _⟩ => ⟨S1x512, .f32⟩
  | .hbm, ⟨17, _⟩ => ⟨S1x1, .f32⟩
  | .hbm, ⟨18, _⟩ => ⟨S65536x3, .f32⟩
  | .hbm, ⟨19, _⟩ => ⟨S65536x1, .f32⟩
  | .hbm, ⟨20, _⟩ => ⟨S65536x1, .f32⟩
  | .hbm, ⟨21, _⟩ => ⟨S65536x1, .f32⟩
  | .local _ .vmem, ⟨0, _⟩ => ⟨S1024x2, .f32⟩
  | .local _ .vmem, ⟨1, _⟩ => ⟨S1024x2, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x512, .bf16⟩
  | .local _ .vmem, ⟨6, _⟩ => ⟨S1x512, .f32⟩
  | .local _ .vmem, ⟨7, _⟩ => ⟨S1x512, .f32⟩
  | .local _ .vmem, ⟨8, _⟩ => ⟨S1x1, .f32⟩
  | .local _ .vmem, ⟨9, _⟩ => ⟨S1024x3, .f32⟩
  | .local _ .vmem, ⟨10, _⟩ => ⟨S1024x3, .f32⟩
  | _, _ => ⟨S65536x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg8_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem8_1 : DmaSem sig := 10

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x3 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  slices_S1024x2_S1024x1_0_0 : S1024x2.Slices ![0, 0] S1024x1
  shapeCasts_S1024x1_S1024 : S1024x1.ShapeCasts S1024
  shapeCasts_S1024_S1x1024 : S1024.ShapeCasts S1x1024
  slices_S1024x2_S1024x1_0_1 : S1024x2.Slices ![0, 1] S1024x1
  transposes_S512x1024_S1024x512_1_0 : S512x1024.Transposes [1, 0] S1024x512
  bitsLt_bf16_f32 : FTy.bits .bf16 < FTy.bits .f32
  shapeCasts_S512_S1x512 : S512.ShapeCasts S1x512
  shapeCasts_S1_S1x1 : S1.ShapeCasts S1x1
  inb_S1024x2_S1024x2_0_0 : ∀ a, (![0, 0] : Fin 2 → Nat) a + S1024x2.size a ≤ S1024x2.size a
  h_S1024x2 : 0 < S1024x2.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  inb_S1024x512_S1024x512_0_0 : ∀ a, (![0, 0] : Fin 2 → Nat) a + S1024x512.size a ≤ S1024x512.size a
  h_S1024x512 : 0 < S1024x512.numel
  shapeCasts_S1024x512_S1024x512 : S1024x512.ShapeCasts S1024x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  inb_S1x1_S1x1_0_0 : ∀ a, (![0, 0] : Fin 2 → Nat) a + S1x1.size a ≤ S1x1.size a
  h_S1x1 : 0 < S1x1.numel
  shapeCasts_S1x1_S1x1 : S1x1.ShapeCasts S1x1
  slices_S1024x2_o0_0_S1024x1 : S1024x2.Slices ![0, 0] S1024x1
  slices_S1024x2_o0_1_S1024x1 : S1024x2.Slices ![0, 1] S1024x1
  broadcasts_S1024x1_S1024x1024 : S1024x1.Broadcasts S1024x1024
  broadcasts_S1x1024_S1024x1024 : S1x1024.Broadcasts S1024x1024
  broadcasts_S1x512_S1024x512 : S1x512.Broadcasts S1024x512
  reduces_S1024x512_S1024 : S1024x512.Reduces [1] S1024
  shapeCasts_S1024_S1024x1 : S1024.ShapeCasts S1024x1
  broadcasts_S1x1_S1024x1 : S1x1.Broadcasts S1024x1
  concatenates_S1024x1_S1024x1_S1024x1_S1024x3_d1 : Shape.Concatenates [S1024x1, S1024x1, S1024x1] S1024x3 1
  inb_S1024x3_S1024x3_0_0 : ∀ a, (![0, 0] : Fin 2 → Nat) a + S1024x3.size a ≤ S1024x3.size a
  h_S1024x3 : 0 < S1024x3.numel
  slices_S65536x3_S65536x1_0_0 : S65536x3.Slices ![0, 0] S65536x1
  slices_S65536x3_S65536x1_0_1 : S65536x3.Slices ![0, 1] S65536x1
  slices_S65536x3_S65536x1_0_2 : S65536x3.Slices ![0, 2] S65536x1
  dot_S1024x1024_S1024x512_S1024x512_1_0_0_1_n_n_wf : DotDims.WF S1024x1024 S1024x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2.size a ≤ S65536x2.size a
  hwx0_0 : ∀ i : grid0.Coords, EltTy.bits .f32 = 32 ∨ (Rect.block (s := S65536x2) S1024x2.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1024.size a ≤ S1x1024.size a
  hwx0_1 : ∀ i : grid0.Coords, EltTy.bits .f32 = 32 ∨ (Rect.block (s := S1x1024) S1x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x512.size a ≤ S1024x512.size a
  hwx0_4 : ∀ i : grid0.Coords, EltTy.bits .bf16 = 32 ∨ (Rect.block (s := S1024x512) S1024x512.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x512.size a ≤ S1x512.size a
  hwx0_5 : ∀ i : grid0.Coords, EltTy.bits .f32 = 32 ∨ (Rect.block (s := S1x512) S1x512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x512.size a ≤ S1x512.size a
  hwx0_6 : ∀ i : grid0.Coords, EltTy.bits .f32 = 32 ∨ (Rect.block (s := S1x512) S1x512.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x1.size a ≤ S1x1.size a
  hwx0_7 : ∀ i : grid0.Coords, EltTy.bits .f32 = 32 ∨ (Rect.block (s := S1x1) S1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x3.size a ≤ S65536x3.size a
  hwx0_8 : ∀ i : grid0.Coords, EltTy.bits .f32 = 32 ∨ (Rect.block (s := S65536x3) S1024x3.size (cc0_transform_8 i) (hinb0_8 i)).WholeWords (EltTy.packing .f32)

variable [Facts₀]

def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf

abbrev win0_0 : Pipeline.Window sig grid0 :=
  Pipeline.Window.ofSpec (Memref.whole main_arg0) S1024x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v8) S1024x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S1x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v11) S1024x3.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x2 : Shape := ⟨2, ![65536, 2]⟩
abbrev S1024x2 : Shape := ⟨2, ![1024, 2]⟩
abbrev S1024 : Shape := ⟨1, ![1024]⟩
abbrev S512x1024 : Shape := ⟨2, ![512, 1024]⟩
abbrev S512 : Shape := ⟨1, ![512]⟩
abbrev S1x512 : Shape := ⟨2, ![1, 512]⟩
abbrev S1 : Shape := ⟨1, ![1]⟩
abbrev S2x1024 : Shape := ⟨2, ![2, 1024]⟩
abbrev S65536x1024 : Shape := ⟨2, ![65536, 1024]⟩
abbrev S1x1024 : Shape := ⟨2, ![1, 1024]⟩
abbrev S1024x512 : Shape := ⟨2, ![1024, 512]⟩
abbrev S65536x512 : Shape := ⟨2, ![65536, 512]⟩
abbrev S512x1 : Shape := ⟨2, ![512, 1]⟩
abbrev S65536x1 : Shape := ⟨2, ![65536, 1]⟩
abbrev S1x1 : Shape := ⟨2, ![1, 1]⟩
abbrev S1024x65536 : Shape := ⟨2, ![1024, 65536]⟩
abbrev S_ : Shape := ⟨0, ![]⟩
abbrev S512x65536 : Shape := ⟨2, ![512, 65536]⟩
abbrev S1024x1 : Shape := ⟨2, ![1024, 1]⟩
abbrev S1x65536 : Shape := ⟨2, ![1, 65536]⟩

abbrev nBuf : Space → Nat
  | .hbm => 63
  | .vmem => 0
  | .smem => 0
  | _ => 0

abbrev bufTy : (tb : Table) → Fin (tcTables nBuf tb) → BufTy
  | .hbm, ⟨0, _⟩ => ⟨S65536x2, .f32⟩
  | .hbm, ⟨1, _⟩ => ⟨S1024x2, .f32⟩
  | .hbm, ⟨2, _⟩ => ⟨S1024, .f32⟩
  | .hbm, ⟨3, _⟩ => ⟨S512x1024, .f32⟩
  | .hbm, ⟨4, _⟩ => ⟨S512, .f32⟩
  | .hbm, ⟨5, _⟩ => ⟨S1x512, .f32⟩
  | .hbm, ⟨6, _⟩ => ⟨S1, .f32⟩
  | .hbm, ⟨7, _⟩ => ⟨S2x1024, .f32⟩
  | .hbm, ⟨8, _⟩ => ⟨S65536x1024, .f32⟩
  | .hbm, ⟨9, _⟩ => ⟨S1x1024, .f32⟩
  | .hbm, ⟨10, _⟩ => ⟨S65536x1024, .f32⟩
  | .hbm, ⟨11, _⟩ => ⟨S65536x1024, .f32⟩
  | .hbm, ⟨12, _⟩ => ⟨S65536x1024, .f32⟩
  | .hbm, ⟨13, _⟩ => ⟨S1024x512, .f32⟩
  | .hbm, ⟨14, _⟩ => ⟨S65536x512, .f32⟩
  | .hbm, ⟨15, _⟩ => ⟨S1x512, .f32⟩
  | .hbm, ⟨16, _⟩ => ⟨S65536x512, .f32⟩
  | .hbm, ⟨17, _⟩ => ⟨S65536x512, .f32⟩
  | .hbm, ⟨18, _⟩ => ⟨S65536x512, .f32⟩
  | .hbm, ⟨19, _⟩ => ⟨S512x1, .f32⟩
  | .hbm, ⟨20, _⟩ => ⟨S65536x1, .f32⟩
  | .hbm, ⟨21, _⟩ => ⟨S1x1, .f32⟩
  | .hbm, ⟨22, _⟩ => ⟨S65536x1, .f32⟩
  | .hbm, ⟨23, _⟩ => ⟨S65536x1, .f32⟩
  | .hbm, ⟨24, _⟩ => ⟨S1024x65536, .f32⟩
  | .hbm, ⟨25, _⟩ => ⟨S1024x65536, .f32⟩
  | .hbm, ⟨26, _⟩ => ⟨S1024x65536, .f32⟩
  | .hbm, ⟨27, _⟩ => ⟨S1024x65536, .f32⟩
  | .hbm, ⟨28, _⟩ => ⟨S1024x65536, .f32⟩
  | .hbm, ⟨29, _⟩ => ⟨S1024x65536, .f32⟩
  | .hbm, ⟨30, _⟩ => ⟨S1024x65536, .f32⟩
  | .hbm, ⟨31, _⟩ => ⟨S_, .f32⟩
  | .hbm, ⟨32, _⟩ => ⟨S1024x65536, .f32⟩
  | .hbm, ⟨33, _⟩ => ⟨S1024x65536, .f32⟩
  | .hbm, ⟨34, _⟩ => ⟨S512x65536, .f32⟩
  | .hbm, ⟨35, _⟩ => ⟨S512x65536, .f32⟩
  | .hbm, ⟨36, _⟩ => ⟨S512x65536, .f32⟩
  | .hbm, ⟨37, _⟩ => ⟨S512x65536, .f32⟩
  | .hbm, ⟨38, _⟩ => ⟨S512x65536, .f32⟩
  | .hbm, ⟨39, _⟩ => ⟨S512x65536, .f32⟩
  | .hbm, ⟨40, _⟩ => ⟨S512x65536, .f32⟩
  | .hbm, ⟨41, _⟩ => ⟨S_, .f32⟩
  | .hbm, ⟨42, _⟩ => ⟨S512x65536, .f32⟩
  | .hbm, ⟨43, _⟩ => ⟨S512x65536, .f32⟩
  | .hbm, ⟨44, _⟩ => ⟨S1024x1, .f32⟩
  | .hbm, ⟨45, _⟩ => ⟨S1024, .f32⟩
  | .hbm, ⟨46, _⟩ => ⟨S1024x1, .f32⟩
  | .hbm, ⟨47, _⟩ => ⟨S1024x1, .f32⟩
  | .hbm, ⟨48, _⟩ => ⟨S1024, .f32⟩
  | .hbm, ⟨49, _⟩ => ⟨S1024x1, .f32⟩
  | .hbm, ⟨50, _⟩ => ⟨S1024x65536, .f32⟩
  | .hbm, ⟨51, _⟩ => ⟨S1024x65536, .f32⟩
  | .hbm, ⟨52, _⟩ => ⟨S512x65536, .f32⟩
  | .hbm, ⟨53, _⟩ => ⟨S512x65536, .f32⟩
  | .hbm, ⟨54, _⟩ => ⟨S1x65536, .f32⟩
  | .hbm, ⟨55, _⟩ => ⟨S65536x1, .f32⟩
  | .hbm, ⟨56, _⟩ => ⟨S1024x65536, .f32⟩
  | .hbm, ⟨57, _⟩ => ⟨S1024x65536, .f32⟩
  | .hbm, ⟨58, _⟩ => ⟨S512x65536, .f32⟩
  | .hbm, ⟨59, _⟩ => ⟨S512x65536, .f32⟩
  | .hbm, ⟨60, _⟩ => ⟨S1x65536, .f32⟩
  | .hbm, ⟨61, _⟩ => ⟨S65536x1, .f32⟩
  | .hbm, ⟨62, _⟩ => ⟨S65536x1, .f32⟩
  | _, _ => ⟨S65536x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_0 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_v50 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩

abbrev nD : Nat := 1
abbrev τ : Topo := Topo.v7x

variable {F : FTy → Type} [FloatOps F]

class Facts₀ : Prop where
  transposes_S1024x2_S2x1024_1_0 : S1024x2.Transposes [1, 0] S2x1024
  bcast_S1024_S1x1024_1 : S1024.BroadcastsInDim S1x1024 (![1] : Fin 1 → Fin S1x1024.rank)
  bcast_S1x1024_S65536x1024_0_1 : S1x1024.BroadcastsInDim S65536x1024 (![0, 1] : Fin 2 → Fin S65536x1024.rank)
  transposes_S512x1024_S1024x512_1_0 : S512x1024.Transposes [1, 0] S1024x512
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  transposes_S1x512_S512x1_1_0 : S1x512.Transposes [1, 0] S512x1
  bcast_S1_S1x1_1 : S1.BroadcastsInDim S1x1 (![1] : Fin 1 → Fin S1x1.rank)
  bcast_S1x1_S65536x1_0_1 : S1x1.BroadcastsInDim S65536x1 (![0, 1] : Fin 2 → Fin S65536x1.rank)
  transposes_S65536x1024_S1024x65536_1_0 : S65536x1024.Transposes [1, 0] S1024x65536
  bcast_S_S1024x65536 : S_.BroadcastsInDim S1024x65536 (![] : Fin 0 → Fin S1024x65536.rank)
  transposes_S65536x512_S512x65536_1_0 : S65536x512.Transposes [1, 0] S512x65536
  bcast_S_S512x65536 : S_.BroadcastsInDim S512x65536 (![] : Fin 0 → Fin S512x65536.rank)
  slices_S1024x2_S1024x1_0_0 : S1024x2.Slices ![0, 0] S1024x1
  shapeCasts_S1024x1_S1024 : S1024x1.ShapeCasts S1024
  bcast_S1024_S1024x1_0 : S1024.BroadcastsInDim S1024x1 (![0] : Fin 1 → Fin S1024x1.rank)
  slices_S1024x2_S1024x1_0_1 : S1024x2.Slices ![0, 1] S1024x1
  bcast_S1024x1_S1024x65536_0_1 : S1024x1.BroadcastsInDim S1024x65536 (![0, 1] : Fin 2 → Fin S1024x65536.rank)
  transposes_S1x65536_S65536x1_1_0 : S1x65536.Transposes [1, 0] S65536x1
  dot_S65536x2_S2x1024_S65536x1024_1_0_0_1_n_n_wf : DotDims.WF S65536x2 S2x1024 S65536x1024 [1] [0] [0] [1] [] []
  dot_S65536x1024_S1024x512_S65536x512_1_0_0_1_n_n_wf : DotDims.WF S65536x1024 S1024x512 S65536x512 [1] [0] [0] [1] [] []
  dot_S65536x512_S512x1_S65536x1_1_0_0_1_n_n_wf : DotDims.WF S65536x512 S512x1 S65536x1 [1] [0] [0] [1] [] []
  dot_S512x1024_S1024x65536_S512x65536_1_0_0_1_n_n_wf : DotDims.WF S512x1024 S1024x65536 S512x65536 [1] [0] [0] [1] [] []
  dot_S1x512_S512x65536_S1x65536_1_0_0_1_n_n_wf : DotDims.WF S1x512 S512x65536 S1x65536 [1] [0] [0] [1] [] []

variable [Facts₀]

def dot_S65536x2_S2x1024_S65536x1024_1_0_0_1_n_n : DotDims S65536x2 S2x1024 S65536x1024 where
  lhsContracting := [1]
  rhsContracting := [0]
  lhsNonContracting := [0]
  rhsNonContracting := [1]
  lhsBatch := []
  rhsBatch := []
  wf := dot_S65536x2_S2x1024_S65536x1024_1_0_0_1_n_n_wf
def dot_S65536x1024_S1024x512_S65536x512_1_0_0_1_n_n : DotDims S65536x1024 S1024x512 S65536x512 where
  lhsContracting := [1]
  rhsContracting := [0]
  lhsNonContracting := [0]
  rhsNonContracting := [1]
  lhsBatch := []
  rhsBatch := []
  wf := dot_S65536x1024_S1024x512_S65536x512_1_0_0_1_n_n_wf
def dot_S65536x512_S512x1_S65536x1_1_0_0_1_n_n : DotDims S65536x512 S512x1 S65536x1 where
  lhsContracting := [1]
  rhsContracting := [0]
  lhsNonContracting := [0]
  rhsNonContracting := [1]
  lhsBatch := []
  rhsBatch := []
  wf := dot_S65536x512_S512x1_S65536x1_1_0_0_1_n_n_wf
def dot_S512x1024_S1024x65536_S512x65536_1_0_0_1_n_n : DotDims S512x1024 S1024x65536 S512x65536 where
  lhsContracting := [1]
  rhsContracting := [0]
  lhsNonContracting := [0]
  rhsNonContracting := [1]
  lhsBatch := []
  rhsBatch := []
  wf := dot_S512x1024_S1024x65536_S512x65536_1_0_0_1_n_n_wf
def dot_S1x512_S512x65536_S1x65536_1_0_0_1_n_n : DotDims S1x512 S512x65536 S1x65536 where
  lhsContracting := [1]
  rhsContracting := [0]
  lhsNonContracting := [0]
  rhsNonContracting := [1]
  lhsBatch := []
  rhsBatch := []
  wf := dot_S1x512_S512x65536_S1x65536_1_0_0_1_n_n_wf

class Facts : Prop extends Facts₀ where

variable [Facts]
-- ==== Proof.LibTanhSlope.lean ====
/-
  The slope of tanh over the extended reals, in its two spellings.

  A program that differentiates through tanh writes the slope either with tanh itself, 1 − tanh² h, or with
  exponentials, 4 / (e^(−h) + e^h)² (the square written as a product). On a real both are 1 / cosh² h; at +∞ and −∞
  the sum of exponentials is +∞, so the quotient is 0, while tanh is ±1, so 1 − tanh² is 0 as well. Hence the two
  spellings are ONE function on every extended real (slope_eq), with no finiteness assumption. The values of the two
  float constants the spellings use (1.0 and 4.0) are stated beside it.
-/
import Idealize.ShloMosaic.PureOps.Ideal
import Idealize.ShloMosaic.PureOps.Ideal.Laws

noncomputable section

namespace Cert.TanhSlope

open Idealize.ShloMosaic

/-! ## The two float constants -/

/-- The pattern of 1.0 denotes 1. -/
theorem ofBits_one : Ideal.ofBits .f32 0x3F800000#32 = 1 := by
  simp [Ideal.ofBits, Ideal.ieee, -EReal.coe_mul]; norm_num

/-- The pattern of 4.0 denotes the real 4. -/
theorem ofBits_four : Ideal.ofBits .f32 0x40800000#32 = ((4 : ℝ) : EReal) := by
  simp [Ideal.ofBits, Ideal.ieee, -EReal.coe_mul]; norm_num

/-! ## The slope of tanh, in its two spellings -/

/-- The slope of tanh written with tanh itself. -/
def slope (h : EReal) : EReal := 1 - Ideal.tanh h * Ideal.tanh h

/-- On the reals, 4 / (e^(−r) + e^r)² = 1 − tanh² r: both are 1 / cosh² r. -/
theorem real_slope (r : ℝ) :
    4 * (1 / ((Real.exp (-r) + Real.exp r) * (Real.exp (-r) + Real.exp r))) = 1 - Real.tanh r * Real.tanh r := by
  have hc : Real.cosh r ≠ 0 := ne_of_gt (Real.cosh_pos r)
  have he : Real.exp (-r) + Real.exp r = 2 * Real.cosh r := by rw [Real.cosh_eq]; ring
  have hs := Real.cosh_sq r
  rw [he, Real.tanh_eq_sinh_div_cosh]
  field_simp
  nlinarith [hs]

/-- The slope written with exponentials is the slope written with tanh, at every extended real: on a real both are
    1 / cosh², and at either infinity the sum of exponentials is +∞, so the quotient is 0, while tanh is ±1. -/
theorem slope_eq (h : EReal) :
    Ideal.div ((4 : ℝ) : EReal) ((Ideal.exp (-h) + Ideal.exp h) * (Ideal.exp (-h) + Ideal.exp h)) = slope h := by
  unfold slope
  induction h using EReal.rec with
  | bot =>
    simp [Ideal.div]
    rw [← EReal.coe_one, ← EReal.coe_sub, sub_self, EReal.coe_zero]
  | top =>
    simp [Ideal.div]
    rw [← EReal.coe_one, ← EReal.coe_sub, sub_self, EReal.coe_zero]
  | coe r =>
    have hpos : (0 : ℝ) < (Real.exp (-r) + Real.exp r) * (Real.exp (-r) + Real.exp r) := by positivity
    rw [← EReal.coe_neg, Ideal.exp_coe, Ideal.exp_coe, Ideal.tanh_coe, ← EReal.coe_add, ← EReal.coe_mul,
      Ideal.div_coe (ne_of_gt hpos), ← EReal.coe_mul, ← EReal.coe_mul, ← EReal.coe_one, ← EReal.coe_sub, real_slope]

end Cert.TanhSlope

end
-- ==== Proof.Network.lean ====
/-
  A tanh network with two hidden layers on a point (s, t) of the plane, its value and its two partial
  derivatives, over the extended reals.

  The first layer sends the point to the row  j ↦ s · u j + t · v j + b j  (u, v the two columns of the first
  weight matrix), the second layer sends a row z to  q ↦ (∑ j, z j · w j q) + c q, each followed by tanh, and the
  head is  (∑ q, z q · a q) + e.  By the chain rule the derivative along the first coordinate is
  ∑ q, (σ₂ q · ∑ j, (σ₁ j · u j) · w j q) · a q,  where σ is the slope of tanh at the layer's pre-activation
  (and with v for u along the second coordinate).

  The slope of tanh has two spellings, 1 − tanh² h and 4 / (e^(−h) + e^h)²; they are the same function on ALL the
  extended reals — at ±∞ both are 0 (slope_eq, in the module on the slope of tanh).
-/
import Idealize.ShloMosaic.PureOps.Ideal
import Idealize.ShloMosaic.PureOps.Ideal.Laws
import Idealize.ShloMosaic.Lib.ValueIdx
import proofs.«140932_j4320737099970_2_alg».proof.Proof.LibTanhSlope

noncomputable section

namespace Cert.DerivNet

open Idealize.ShloMosaic

/-! ## The slope of tanh -/

export Cert.TanhSlope (slope slope_eq ofBits_one ofBits_four)

/-! ## The network on one point -/

section Point
variable {K J : ℕ}

/-- The first layer's pre-activation row at the point (s, t). -/
def pre1 (s t : EReal) (u v b : Fin K → EReal) : Fin K → EReal := fun j => s * u j + t * v j + b j

/-- The second layer's pre-activation row of a hidden row z. -/
def pre2 (z : Fin K → EReal) (w : Fin K → Fin J → EReal) (c : Fin J → EReal) : Fin J → EReal :=
  fun q => (∑ j : Fin K, z j * w j q) + c q

/-- The head: a weighted sum of the last hidden row, plus a bias. -/
def head (z a : Fin J → EReal) (e : EReal) : EReal := (∑ q : Fin J, z q * a q) + e

/-- The chain rule through both layers: σ₁, σ₂ the slopes at the two layers, d the derivative of the first
    pre-activation along the chosen coordinate. -/
def chain (σ₁ d : Fin K → EReal) (w : Fin K → Fin J → EReal) (σ₂ a : Fin J → EReal) : EReal :=
  ∑ q : Fin J, (σ₂ q * ∑ j : Fin K, (σ₁ j * d j) * w j q) * a q

/-- The same sum with every product written the other way round (the weights on the left). -/
theorem chain_comm (σ₁ d : Fin K → EReal) (w : Fin K → Fin J → EReal) (σ₂ a : Fin J → EReal) :
    (∑ q : Fin J, a q * (σ₂ q * ∑ j : Fin K, w j q * (σ₁ j * d j))) = chain σ₁ d w σ₂ a := by
  unfold chain
  refine Finset.sum_congr rfl fun q _ => ?_
  rw [mul_comm (a q)]
  refine congrArg (fun y => (σ₂ q * y) * a q) ?_
  exact Finset.sum_congr rfl fun j _ => mul_comm _ _

/-- The first hidden row at the point. -/
def hidden1 (s t : EReal) (u v b : Fin K → EReal) : Fin K → EReal := fun j => Ideal.tanh (pre1 s t u v b j)

/-- The second hidden row at the point. -/
def hidden2 (s t : EReal) (u v b : Fin K → EReal) (w : Fin K → Fin J → EReal) (c : Fin J → EReal) : Fin J → EReal :=
  fun q => Ideal.tanh (pre2 (hidden1 s t u v b) w c q)

/-- The network's value at the point. -/
def value (s t : EReal) (u v b : Fin K → EReal) (w : Fin K → Fin J → EReal) (c a : Fin J → EReal) (e : EReal) : EReal :=
  head (hidden2 s t u v b w c) a e

/-- The network's derivative at the point along the coordinate whose first-layer column is d. -/
def deriv (d : Fin K → EReal) (s t : EReal) (u v b : Fin K → EReal) (w : Fin K → Fin J → EReal) (c a : Fin J → EReal) : EReal :=
  chain (fun j => slope (pre1 s t u v b j)) d w (fun q => slope (pre2 (hidden1 s t u v b) w c q)) a

/-- The three numbers computed at the point: the value, the derivative along the second coordinate, and minus the
    derivative along the first. -/
def outputs (s t : EReal) (u v b : Fin K → EReal) (w : Fin K → Fin J → EReal) (c a : Fin J → EReal) (e : EReal) : Fin 3 → EReal :=
  ![value s t u v b w c a e, deriv v s t u v b w c a, -(deriv u s t u v b w c a)]

end Point

/-! ## The network on an array of points -/

open Idealize.ShloMosaic.ValueIdx in
/-- Every row of an [N, 2] array of points sent to its three outputs: an [N, 3] array. -/
def onPoints {N K J : ℕ} (X : (⟨2, ![N, 2]⟩ : Shape).Idx → EReal) (u v b : Fin K → EReal) (w : Fin K → Fin J → EReal)
    (c a : Fin J → EReal) (e : EReal) : (⟨2, ![N, 3]⟩ : Shape).Idx → EReal :=
  fun i => outputs (X (ix2 (i 0) 0)) (X (ix2 (i 0) 1)) u v b w c a e (i 1)

end Cert.DerivNet

end
-- ==== Proof.LibRowLayers.lean ====
/-
  Rows of two-dimensional arrays over the extended reals, and the layers of a row-wise network.

  A point-wise multilayer perceptron treats every row of its input matrix alone: a dense layer sends the row
  `h` to `j ↦ (∑ k, h k · w[k, j]) + b j`, a rectifier takes the maximum with a threshold entry by entry, a
  concatenation along the columns sets two rows side by side. This file names those three row functions
  (`dense`, `relu`, `join`) and reads, ROW BY ROW, the array operations that compute them: a matrix product
  into a zero accumulator (the device's) or with no accumulator (the host's) whose dimension numbers say
  "rows times columns" (`RowsTimesCols`), the addition of a bias row broadcast down the rows, the maximum
  with a splat constant, a slice of columns, and a concatenation of columns. Every statement is for an
  arbitrary number of rows, so one calculus serves a block of rows and the whole array alike.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value

noncomputable section

namespace Cert.RowLayers

open Idealize.ShloMosaic Idealize.ShloMosaic.ValueIdx

/-! ## Rows, and the three row functions -/

section Rows
variable {α : Type}

/-- Row `p` of an `[a, b]` array: the function `k ↦ v[p, k]`. -/
def rowOf {a b : ℕ} (v : (⟨2, ![a, b]⟩ : Shape).Idx → α) (p : Fin a) : Fin b → α := fun k => v (ix2 p k)

theorem rowOf_apply {a b : ℕ} (v : (⟨2, ![a, b]⟩ : Shape).Idx → α) (p : Fin a) (k : Fin b) : rowOf v p k = v (ix2 p k) := rfl

/-- An array read at an index is its row at the first coordinate read at the second. -/
theorem apply_eq_rowOf {a b : ℕ} (v : (⟨2, ![a, b]⟩ : Shape).Idx → α) (i : (⟨2, ![a, b]⟩ : Shape).Idx) : v i = rowOf v (i 0) (i 1) :=
  congrArg v (eq_ix2 i)

/-- Two rows side by side: the first `A` entries are `f`'s, the next `B` are `g`'s. -/
def join {A B C : ℕ} (hC : C = A + B) (f : Fin A → α) (g : Fin B → α) : Fin C → α :=
  fun k => if h : k.val < A then f ⟨k.val, h⟩ else g ⟨k.val - A, by have := k.isLt; omega⟩

end Rows

/-- A dense layer on a row `h`: entry `j` is `(∑ k, h k · w[k, j]) + b j`. -/
def dense {K J : ℕ} (h : Fin K → EReal) (w : (⟨2, ![K, J]⟩ : Shape).Idx → EReal) (b : Fin J → EReal) : Fin J → EReal :=
  fun j => (∑ k : Fin K, h k * w (ix2 k j)) + b j

/-- The rectifier with threshold `z`, entry by entry: `max (f j) z`. -/
def relu {J : ℕ} (z : EReal) (f : Fin J → EReal) : Fin J → EReal := fun j => max (f j) z

/-! ## A matrix product whose dimension numbers say "rows times columns" -/

section Contraction
variable {a K b : ℕ} (d : DotDims ⟨2, ![a, K]⟩ ⟨2, ![K, b]⟩ ⟨2, ![a, b]⟩)

/-- The dimension numbers of an `[a, K] × [K, b] → [a, b]` product contract ONE axis, of extent `K`, and read the
    left operand at (output row, contracted position) and the right one at (contracted position, output column). -/
structure RowsTimesCols : Prop where
  rank : d.contr.rank = 1
  size : d.contr.size ⟨0, by omega⟩ = K
  lhs0 : ∀ (j : (⟨2, ![a, b]⟩ : Shape).Idx) (q : d.contr.Idx), (d.lhsIdx j q 0).val = (j 0).val
  lhs1 : ∀ (j : (⟨2, ![a, b]⟩ : Shape).Idx) (q : d.contr.Idx), (d.lhsIdx j q 1).val = (q ⟨0, by omega⟩).val
  rhs0 : ∀ (j : (⟨2, ![a, b]⟩ : Shape).Idx) (q : d.contr.Idx), (d.rhsIdx j q 0).val = (q ⟨0, by omega⟩).val
  rhs1 : ∀ (j : (⟨2, ![a, b]⟩ : Shape).Idx) (q : d.contr.Idx), (d.rhsIdx j q 1).val = (j 1).val

variable {d}

/-- The sum over the contraction's index set, re-indexed by the contracted position `k < K`: entry `(p, q)` of the
    product is `∑ k, lhs[p, k] · rhs[k, q]`. -/
theorem RowsTimesCols.sum_eq (H : RowsTimesCols d) (lhs : (⟨2, ![a, K]⟩ : Shape).Idx → EReal) (rhs : (⟨2, ![K, b]⟩ : Shape).Idx → EReal)
    (p : Fin a) (q : Fin b) :
    (∑ k : d.contr.Idx, lhs (d.lhsIdx (ix2 p q) k) * rhs (d.rhsIdx (ix2 p q) k)) = ∑ k : Fin K, lhs (ix2 p k) * rhs (ix2 k q) := by
  rw [← Equiv.sum_comp (contrEquiv1 d K H.rank H.size).symm]
  refine Finset.sum_congr rfl fun k _ => ?_
  have hk := contrEquiv1_symm_val d K H.rank H.size k
  have el : d.lhsIdx (ix2 p q) ((contrEquiv1 d K H.rank H.size).symm k) = ix2 p k := funext fun ax => Fin.ext (by
    match ax with
    | ⟨0, _⟩ => exact H.lhs0 _ _
    | ⟨1, _⟩ => exact (H.lhs1 _ _).trans hk)
  have er : d.rhsIdx (ix2 p q) ((contrEquiv1 d K H.rank H.size).symm k) = ix2 k q := funext fun ax => Fin.ext (by
    match ax with
    | ⟨0, _⟩ => exact (H.rhs0 _ _).trans hk
    | ⟨1, _⟩ => exact H.rhs1 _ _)
  rw [el, er]

/-- Row `p` of the device's product into a zero accumulator. -/
theorem rowOf_matmul_zero {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (matmul d prec lhs rhs (constant (F := Ideal) ⟨2, ![a, b]⟩ .f32 0x00000000#32)) p
      = fun j => ∑ k : Fin K, rowOf lhs p k * rhs (ix2 k j) := by
  funext j
  show FloatOps.matmul d prec lhs rhs (constant (F := Ideal) ⟨2, ![a, b]⟩ .f32 0x00000000#32) (ix2 p j) = _
  rw [Ideal.matmul_constant_zero_apply]
  exact H.sum_eq lhs rhs p j

/-- Row `p` of the host's product. -/
theorem rowOf_dotGeneral {φ₁ φ₂ : FTy} (H : RowsTimesCols d) (prec : Option ContractPrecision)
    (lhs : FVec Ideal ⟨2, ![a, K]⟩ φ₁) (rhs : FVec Ideal ⟨2, ![K, b]⟩ φ₂) (p : Fin a) :
    rowOf (Host.dotGeneral (F := Ideal) d prec lhs rhs) p = fun j => ∑ k : Fin K, rowOf lhs p k * rhs (ix2 k j) := by
  funext j
  show FloatOps.dotGeneral d prec .single lhs rhs (ix2 p j) = _
  rw [Ideal.dotGeneral_apply]
  exact H.sum_eq lhs rhs p j

end Contraction

/-! ## The other operations, read on a row -/

section Ops
variable {a b : ℕ} {φ : FTy}

/-- A sum of arrays, on a row. -/
theorem rowOf_addf (x y : FVec Ideal ⟨2, ![a, b]⟩ φ) (p : Fin a) : rowOf (addf x y) p = fun j => rowOf x p j + rowOf y p j := rfl

/-- A change of float format does nothing to an extended real. -/
theorem rowOf_truncf {ψ : FTy} (x : FVec Ideal ⟨2, ![a, b]⟩ φ) (h : ψ.bits < φ.bits) (p : Fin a) :
    rowOf (truncf ψ x h : FVec Ideal ⟨2, ![a, b]⟩ ψ) p = rowOf x p := rfl

/-- The maximum with a splat scalar is the rectifier at that scalar. -/
theorem rowOf_maximumf_splat (x : FVec Ideal ⟨2, ![a, b]⟩ φ) (z : Ideal φ) (p : Fin a) :
    rowOf (maximumf x (broadcast ⟨2, ![a, b]⟩ z)) p = relu z (rowOf x p) := rfl

/-- The maximum with a rank-0 constant broadcast over the array is the rectifier at that constant. -/
theorem rowOf_maximumf_const {s : Shape} (x : FVec Ideal ⟨2, ![a, b]⟩ φ) (w : BitVec φ.bits) (dims : Fin s.rank → Fin 2)
    (h : s.BroadcastsInDim ⟨2, ![a, b]⟩ dims) (p : Fin a) :
    rowOf (maximumf x (broadcastInDim ⟨2, ![a, b]⟩ dims h (constant (F := Ideal) s φ w))) p = relu (Ideal.ofBits φ w) (rowOf x p) := rfl

/-- One row broadcast down `a` rows: every row is that row. -/
theorem rowOf_broadcastTo {α : Type} (v : (⟨2, ![1, b]⟩ : Shape).Idx → α) (h : (⟨2, ![1, b]⟩ : Shape).Broadcasts ⟨2, ![a, b]⟩) (p : Fin a) :
    rowOf (broadcastTo ⟨2, ![a, b]⟩ v h) p = rowOf v 0 :=
  funext fun c => broadcastTo_1b_ab_apply v h p c

/-- The host's form of the same: a `[b]` vector first given a unit leading axis, then broadcast down `a` rows. -/
theorem rowOf_broadcastInDim_vec {α : Type} (x : (⟨1, ![b]⟩ : Shape).Idx → α)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (broadcastInDim ⟨2, ![a, b]⟩ ![0, 1] h2 (broadcastInDim ⟨2, ![1, b]⟩ ![1] h1 x)) p = fun j => x (ix1 j) := by
  funext c
  show broadcastInDim ⟨2, ![a, b]⟩ ![0, 1] h2 (broadcastInDim ⟨2, ![1, b]⟩ ![1] h1 x) (ix2 p c) = x (ix1 c)
  rw [broadcastInDim_apply ![0, 1] h2 _ (ix2 p c) (ix2 (0 : Fin 1) c) (fun ax => by
        match ax with
        | ⟨0, _⟩ => show (0 : ℕ) = if (1 : ℕ) = 1 then 0 else p.val; rw [if_pos rfl]
        | ⟨1, _⟩ => show c.val = if b = 1 then 0 else c.val; split <;> [(have := c.isLt; omega); rfl]),
      broadcastInDim_apply ![1] h1 x (ix2 (0 : Fin 1) c) (ix1 c) (fun ax => by
        match ax with
        | ⟨0, _⟩ => show c.val = if b = 1 then 0 else c.val; split <;> [(have := c.isLt; omega); rfl])]

/-- A window of `m` columns from column `o`: the row's entries from `o` on. -/
theorem rowOf_slice_cols {α : Type} {n m : ℕ} (o : ℕ) (X : (⟨2, ![a, n]⟩ : Shape).Idx → α)
    (h : (⟨2, ![a, n]⟩ : Shape).Slices ![0, o] ⟨2, ![a, m]⟩) (p : Fin a) :
    rowOf (extractStridedSlice ⟨2, ![a, m]⟩ ![0, o] X h) p
      = fun j => rowOf X p ⟨o + j.val, Nat.lt_of_lt_of_le (Nat.add_lt_add_left j.isLt o) (h.2 1)⟩ :=
  funext fun j => slice2_axis1_eq o X h p j

/-- Two arrays concatenated along the columns: each row is the two rows side by side. -/
theorem rowOf_concat_cols {α : Type} {A B C : ℕ} (x : (⟨2, ![a, A]⟩ : Shape).Idx → α) (y : (⟨2, ![a, B]⟩ : Shape).Idx → α)
    (h : Shape.Concatenates [(⟨2, ![a, A]⟩ : Shape), ⟨2, ![a, B]⟩] ⟨2, ![a, C]⟩ 1) (hC : C = A + B) (p : Fin a) :
    rowOf (concatenate ⟨2, ![a, C]⟩ 1 [⟨⟨2, ![a, A]⟩, x⟩, ⟨⟨2, ![a, B]⟩, y⟩] h) p = join hC (rowOf x p) (rowOf y p) := by
  funext k
  show concatenate ⟨2, ![a, C]⟩ 1 [⟨⟨2, ![a, A]⟩, x⟩, ⟨⟨2, ![a, B]⟩, y⟩] h (ix2 p k) = _
  unfold join
  by_cases hk : k.val < A
  · rw [dif_pos hk]
    exact concatenate_pair_apply_left 1 x y h (ix2 p k) rfl (ix2 p ⟨k.val, hk⟩) (fun ax => by
      match ax with
      | ⟨0, _⟩ => rfl
      | ⟨1, _⟩ => rfl)
  · rw [dif_neg hk]
    have hk' : A ≤ k.val := Nat.le_of_not_lt hk
    exact concatenate_pair_apply_right 1 x y h (ix2 p k) rfl rfl (ix2 p ⟨k.val - A, by have := k.isLt; omega⟩)
      (fun ax hne => by
        match ax with
        | ⟨0, _⟩ => rfl
        | ⟨1, _⟩ => exact absurd rfl hne)
      (by show k.val - A + A = k.val; omega)

end Ops

/-! ## A dense layer as each program prints it -/

section Dense
variable {a K b : ℕ} {d : DotDims ⟨2, ![a, K]⟩ ⟨2, ![K, b]⟩ ⟨2, ![a, b]⟩} {φ₁ φ₂ : FTy}

/-- The device's dense layer — a product into a zero accumulator plus a `[1, b]` bias row broadcast down the rows —
    sends row `p` of the input to `dense` of it. -/
theorem rowOf_dense_device (H : RowsTimesCols d) (prec : Option ContractPrecision)
    (h : FVec Ideal ⟨2, ![a, K]⟩ φ₁) (w : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (matmul d prec h w (constant (F := Ideal) ⟨2, ![a, b]⟩ .f32 0x00000000#32)) (broadcastTo ⟨2, ![a, b]⟩ bias hB)) p
      = dense (rowOf h p) w (rowOf bias 0) := by
  rw [rowOf_addf, rowOf_matmul_zero H, rowOf_broadcastTo]
  rfl

/-- The host's dense layer — a product plus a `[b]` bias vector given a unit leading axis and broadcast down the
    rows — sends row `p` of the input to `dense` of it. -/
theorem rowOf_dense_host (H : RowsTimesCols d) (prec : Option ContractPrecision)
    (h : FVec Ideal ⟨2, ![a, K]⟩ φ₁) (w : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (Host.dotGeneral (F := Ideal) d prec h w) (broadcastInDim ⟨2, ![a, b]⟩ ![0, 1] h2 (broadcastInDim ⟨2, ![1, b]⟩ ![1] h1 bias))) p
      = dense (rowOf h p) w (fun j => bias (ix1 j)) := by
  rw [rowOf_addf, rowOf_dotGeneral H, rowOf_broadcastInDim_vec]
  rfl

end Dense

end Cert.RowLayers

end
-- ==== Proof.LibColumnBroadcast.lean ====
/-
  A column broadcast along the lanes, read at an index given by coordinates: an [a, 1] array broadcast to [a, b] reads, at
  (r, k), the operand's row r at its one column. (The keepdims form of a per-row scale: the row broadcast [1, b] → [a, b]
  and the unit-axis casts are the library's; this is their column counterpart, in the same style.)
-/
import Idealize.ShloMosaic.Lib.Pipeline.Value
import Idealize.ShloMosaic.Lib.ValueIdx

namespace Cert.ColumnBroadcast

open Idealize.ShloMosaic Idealize.ShloMosaic.ValueIdx

variable {α : Type}

/-- An `[a, 1]` array broadcast to `[a, b]` reads, at `(r, k)`, the operand at `(r, 0)`: on the row axis the
    coordinate is kept (and is `0` anyway when there is one row), on the unit axis it is `0`. -/
theorem broadcastTo_a1_ab_apply {a b : ℕ} (v : (⟨2, ![a, 1]⟩ : Shape).Idx → α) (h : (⟨2, ![a, 1]⟩ : Shape).Broadcasts ⟨2, ![a, b]⟩)
    (r : Fin a) (k : Fin b) : broadcastTo ⟨2, ![a, b]⟩ v h (ix2 r k) = v (ix2 r (0 : Fin 1)) := by
  refine broadcastTo_apply v h (ix2 r k) (ix2 r (0 : Fin 1)) fun ax => ?_
  match ax with
  | ⟨0, _⟩ =>
    show r.val = if a = 1 then 0 else r.val
    split
    · have := r.isLt; omega
    · rfl
  | ⟨1, _⟩ => rfl

end Cert.ColumnBroadcast
-- ==== Proof.LibChebRows.lean ====
/-
  Rows of a two-term Chebyshev graph layer and of a row-wise log-softmax, over the extended reals.

  A Chebyshev convolution of order two treats every node alone once the graph has been applied: node features `h` go
  through a first weight matrix, the features `t` propagated along the edges through a second one, and a bias is
  added — entry `j` of the node's new row is `(∑ k, h k · w₀[k, j]) + (∑ k, t k · w₁[k, j]) + b j` (`cheb`). The
  network's head sends a row `f` to `j ↦ (f j − M) − log (∑ k, exp (f k − M))`, `M` the row's largest entry
  (`logSoftmax`; `M` is a fold of `max` from a start value `z`, which both programs take to be −∞).
  This file names those row functions and reads, ROW BY ROW and for any number of rows, the array operations that
  compute them in the two forms a program may take: two matrix products into zero accumulators, a `[1, b]` bias row
  broadcast down the rows, lane reductions whose result is re-laid as a column and broadcast back (the device's);
  two `dot_general`s, a `[b]` bias given a unit axis and broadcast, host reductions broadcast back through a unit
  column (the host's). Both forms are the same row functions, which is all that joins the two programs.
-/
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«140932_j4320737099970_2_alg».proof.Proof.LibRowLayers
import proofs.«140932_j4320737099970_2_alg».proof.Proof.LibColumnBroadcast

noncomputable section

namespace Cert.ChebRows

open Idealize.ShloMosaic Idealize.ShloMosaic.ValueIdx Cert.RowLayers

/-! ## The row functions -/

/-- One Chebyshev layer of order two on a node: its own features `h` through `w0`, the propagated features `t`
    through `w1`, plus the bias. -/
def cheb {K J : ℕ} (h t : Fin K → EReal) (w0 w1 : (⟨2, ![K, J]⟩ : Shape).Idx → EReal) (b : Fin J → EReal) : Fin J → EReal :=
  fun j => ((∑ k : Fin K, h k * w0 (ix2 k j)) + (∑ k : Fin K, t k * w1 (ix2 k j))) + b j

/-- The largest entry of a row, taken as a fold of `max` from a start value `z`. -/
def rowMax {n : ℕ} (z : EReal) (f : Fin n → EReal) : EReal := (Finset.univ : Finset (Fin n)).fold max z f

/-- The start value is below the fold, so taking the maximum with it once more changes nothing. -/
theorem max_rowMax {n : ℕ} (z : EReal) (f : Fin n → EReal) : max z (rowMax z f) = rowMax z f :=
  max_eq_right ((Finset.le_fold_max z).mpr (Or.inl le_rfl))

/-- log-softmax of a row: the row shifted by its largest entry, minus the logarithm of the sum of the exponentials of
    the shifted row. -/
def logSoftmax {n : ℕ} (z : EReal) (f : Fin n → EReal) : Fin n → EReal :=
  fun j => (f j - rowMax z f) - Ideal.log (∑ k : Fin n, Ideal.exp (f k - rowMax z f))

/-! ## The Chebyshev layer as each program prints it -/

section Layer
variable {a K b : ℕ} {d : DotDims ⟨2, ![a, K]⟩ ⟨2, ![K, b]⟩ ⟨2, ![a, b]⟩} {φ₁ φ₂ : FTy}

/-- The device's layer — two products into zero accumulators, added, plus a `[1, b]` bias row broadcast down the
    rows — sends rows `p` of the two inputs to `cheb` of them. -/
theorem rowOf_cheb_device (H : RowsTimesCols d) (prec : Option ContractPrecision)
    (h t : FVec Ideal ⟨2, ![a, K]⟩ φ₁) (w0 w1 : FVec Ideal ⟨2, ![K, b]⟩ φ₂) (bias : FVec Ideal ⟨2, ![1, b]⟩ .f32)
    (hB : (⟨2, ![1, b]⟩ : Shape).Broadcasts ⟨2, ![a, b]⟩) (p : Fin a) :
    rowOf (addf (addf (matmul d prec h w0 (constant (F := Ideal) ⟨2, ![a, b]⟩ .f32 0x00000000#32))
                      (matmul d prec t w1 (constant (F := Ideal) ⟨2, ![a, b]⟩ .f32 0x00000000#32)))
                (broadcastTo ⟨2, ![a, b]⟩ bias hB)) p
      = cheb (rowOf h p) (rowOf t p) w0 w1 (rowOf bias 0) := by
  rw [rowOf_addf, rowOf_addf, rowOf_matmul_zero H, rowOf_matmul_zero H, rowOf_broadcastTo]
  rfl

/-- The host's layer — two `dot_general`s, added, plus a `[b]` bias given a unit leading axis and broadcast down the
    rows — sends rows `p` of the two inputs to `cheb` of them. -/
theorem rowOf_cheb_host (H : RowsTimesCols d) (prec : Option ContractPrecision)
    (h t : FVec Ideal ⟨2, ![a, K]⟩ φ₁) (w0 w1 : FVec Ideal ⟨2, ![K, b]⟩ φ₂) (bias : FVec Ideal ⟨1, ![b]⟩ .f32)
    (h1 : (⟨1, ![b]⟩ : Shape).BroadcastsInDim ⟨2, ![1, b]⟩ ![1]) (h2 : (⟨2, ![1, b]⟩ : Shape).BroadcastsInDim ⟨2, ![a, b]⟩ ![0, 1]) (p : Fin a) :
    rowOf (addf (addf (Host.dotGeneral (F := Ideal) d prec h w0) (Host.dotGeneral (F := Ideal) d prec t w1))
                (broadcastInDim ⟨2, ![a, b]⟩ ![0, 1] h2 (broadcastInDim ⟨2, ![1, b]⟩ ![1] h1 bias))) p
      = cheb (rowOf h p) (rowOf t p) w0 w1 (fun j => bias (ix1 j)) := by
  rw [rowOf_addf, rowOf_addf, rowOf_dotGeneral H, rowOf_dotGeneral H, rowOf_broadcastInDim_vec]
  rfl

end Layer

/-! ## Reductions along the lanes, read on a row -/

section Reductions
variable {a n : ℕ} {φ : FTy}

/-- The reduced index `p` with lane `k` put back is `(p, k)`. -/
theorem lift_lane (h : (⟨2, ![a, n]⟩ : Shape).Reduces [1] (⟨1, ![a]⟩ : Shape)) (p : Fin a)
    (k : Fin ((⟨2, ![a, n]⟩ : Shape).size 1)) : h.lift (ix1 p) k = ix2 p (⟨k.val, k.isLt⟩ : Fin n) := by
  funext c; apply Fin.ext
  fin_cases c <;> rfl

/-- The device's maximum along the lanes, at row `p`: the fold of `max` over that row from the accumulator's value. -/
theorem multiReduction_max_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.maximumf.neutral φ hφ) (p : Fin a) :
    multiReduction .maximumf [1] ⟨1, ![a]⟩ src acc h hφ hacc (ix1 p) = rowMax (Ideal.ofBits φ acc) (rowOf src p) := by
  rw [Ideal.multiReduction_maximumf_single]
  have hf : (src ∘ h.lift (ix1 p)) = fun k : Fin n => src (ix2 p k) := funext fun k => congrArg src (lift_lane h p k)
  exact congrArg (fun f => Finset.fold max (Ideal.ofBits φ acc) f (Finset.univ : Finset (Fin n))) hf

/-- The device's sum along the lanes, at row `p`: the sum of that row. -/
theorem multiReduction_add_row (src : FVec Ideal ⟨2, ![a, n]⟩ φ) (acc : BitVec φ.bits)
    (h : (⟨2, ![a, n]⟩ : Shape).Reduces [1] (⟨1, ![a]⟩ : Shape)) (hφ : FKind.Formats φ)
    (hacc : acc = FKind.add.neutral φ hφ) (p : Fin a) :
    multiReduction .add [1] ⟨1, ![a]⟩ src acc h hφ hacc (ix1 p) = ∑ k : Fin n, src (ix2 p k) := by
  rw [Ideal.multiReduction_add_single]
  show (∑ k : Fin n, src (h.lift (ix1 p) k)) = _
  exact Finset.sum_congr rfl fun k _ => congrArg src (lift_lane h p k)

/-- The host's reduce with a maximum body along the lanes, at row `p`: the fold of `max` over that row from the initial value. -/
theorem hostReduce_max_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduce FloatOps.maximumf x init h' hu (ix1 p) = rowMax (init (Shape.Idx.first hu)) (rowOf x p) := by
  rw [Host.reduce_eq_fold_single FloatOps.maximumf x init h' h hu]
  have hf : (x ∘ h.lift (ix1 p)) = fun k : Fin n => x (ix2 p k) := funext fun k => congrArg x (lift_lane h p k)
  exact congrArg (fun f => Finset.fold max (init (Shape.Idx.first hu)) f (Finset.univ : Finset (Fin n))) hf

/-- The host's float sum along the lanes, at row `p`: the initial value plus the sum of that row. -/
theorem hostReduceAdd_row (x : FVec Ideal ⟨2, ![a, n]⟩ φ) (init : (⟨0, ![]⟩ : Shape).Idx → Ideal φ)
    (h' : (⟨2, ![a, n]⟩ : Shape).ReducesTo [1] (⟨1, ![a]⟩ : Shape)) (h : (⟨2, ![a, n]⟩ : Shape).Reduces [1] (⟨1, ![a]⟩ : Shape))
    (hu : 0 < (⟨0, ![]⟩ : Shape).numel) (p : Fin a) :
    Host.reduceAdd x init h' hu (ix1 p) = init (Shape.Idx.first hu) + ∑ k : Fin n, x (ix2 p k) := by
  simp only [Host.reduceAdd, Ideal.hostReduceAdd_def]
  rw [Ideal.hostReduceAdd_single h' h]
  refine congrArg (_ + ·) ?_
  show (∑ k : Fin n, x (h.lift (ix1 p) k)) = _
  exact Finset.sum_congr rfl fun k _ => congrArg x (lift_lane h p k)

end Reductions

/-! ## A per-row value re-laid as a column and broadcast along the lanes -/

section Column
variable {α : Type} {a n : ℕ}

/-- An `[a]` array cast to `[a, 1]` reads, at `(i, u)`, the operand at `i`. -/
theorem shapeCast_a_a1_apply (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- The device's keep-dims form: an `[a]` array cast to a column and broadcast to `[a, n]` reads, at `(p, j)`, entry `p`. -/
theorem column_device_apply (v : (⟨1, ![a]⟩ : Shape).Idx → α) (hc : (⟨1, ![a]⟩ : Shape).ShapeCasts ⟨2, ![a, 1]⟩)
    (hb : (⟨2, ![a, 1]⟩ : Shape).Broadcasts ⟨2, ![a, n]⟩) (p : Fin a) (j : Fin n) :
    broadcastTo ⟨2, ![a, n]⟩ (shapeCast ⟨2, ![a, 1]⟩ v hc) hb (ix2 p j) = v (ix1 p) :=
  (Cert.ColumnBroadcast.broadcastTo_a1_ab_apply _ hb p j).trans (shapeCast_a_a1_apply v hc p 0)

/-- The host's first step: an `[a]` array given a trailing unit axis reads, at `(p, u)`, entry `p`. -/
theorem column_host_apply (v : (⟨1, ![a]⟩ : Shape).Idx → α) (h1 : (⟨1, ![a]⟩ : Shape).BroadcastsInDim ⟨2, ![a, 1]⟩ ![0])
    (p : Fin a) (u : Fin 1) : broadcastInDim ⟨2, ![a, 1]⟩ ![0] h1 v (ix2 p u) = v (ix1 p) :=
  broadcastInDim_apply ![0] h1 v (ix2 p u) (ix1 p) (fun ax => by
    match ax with
    | ⟨0, _⟩ =>
      show p.val = if a = 1 then 0 else p.val
      split
      · have := p.isLt; omega
      · rfl)

/-- The host's second step: an `[a, 1]` column broadcast to `[a, n]` reads, at `(p, j)`, the column at `(p, 0)`. -/
theorem lanes_host_apply (w : (⟨2, ![a, 1]⟩ : Shape).Idx → α) (h2 : (⟨2, ![a, 1]⟩ : Shape).BroadcastsInDim ⟨2, ![a, n]⟩ ![0, 1])
    (p : Fin a) (j : Fin n) : broadcastInDim ⟨2, ![a, n]⟩ ![0, 1] h2 w (ix2 p j) = w (ix2 p (0 : Fin 1)) :=
  broadcastInDim_apply ![0, 1] h2 w (ix2 p j) (ix2 p (0 : Fin 1)) (fun ax => by
    match ax with
    | ⟨0, _⟩ =>
      show p.val = if a = 1 then 0 else p.val
      split
      · have := p.isLt; omega
      · rfl
    | ⟨1, _⟩ => rfl)

end Column

/-! ## Arrays given row by row -/

section Arrays
variable {a K J : ℕ}

/-- Plane `o` of a stack of two `[K, J]` weight matrices. -/
def plane (W : (⟨3, ![2, K, J]⟩ : Shape).Idx → EReal) (o : Fin 2) : (⟨2, ![K, J]⟩ : Shape).Idx → EReal :=
  fun kj => W (ix3 o (kj 0) (kj 1))

theorem plane_apply (W : (⟨3, ![2, K, J]⟩ : Shape).Idx → EReal) (o : Fin 2) (k : Fin K) (j : Fin J) :
    plane W o (ix2 k j) = W (ix3 o k j) := rfl

/-- `cheb` reads its weight matrices at `(k, j)` only: matrices that agree there give the same row. -/
theorem cheb_congr (h t : Fin K → EReal) {w0 w1 w0' w1' : (⟨2, ![K, J]⟩ : Shape).Idx → EReal} (b : Fin J → EReal)
    (e0 : ∀ (k : Fin K) (j : Fin J), w0 (ix2 k j) = w0' (ix2 k j)) (e1 : ∀ (k : Fin K) (j : Fin J), w1 (ix2 k j) = w1' (ix2 k j)) :
    cheb h t w0 w1 b = cheb h t w0' w1' b := by
  funext j
  unfold cheb
  simp only [e0, e1]

/-- The hidden layer of every node: the rectified Chebyshev layer of the node's rows of `x` and of the propagated `tx`. -/
def chebReluArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => relu z (cheb (rowOf x (i 0)) (rowOf tx (i 0)) w0 w1 b) (i 1)

/-- The output layer of every node: the log-softmax of the Chebyshev layer of the node's rows. -/
def chebLogSoftmaxArr (z : EReal) (x tx : (⟨2, ![a, K]⟩ : Shape).Idx → EReal) (w0 w1 : (⟨2, ![K, J]⟩ : Shape).Idx → EReal)
    (b : Fin J → EReal) : (⟨2, ![a, J]⟩ : Shape).Idx → EReal :=
  fun i => logSoftmax z (cheb (rowOf x (i 0)) (rowOf tx (i 0)) w0 w1 b) (i 1)

theorem chebReluArr_ix2 (z : EReal) (x tx : (⟨2, ![a, K]⟩ : Shape).Idx → EReal) (w0 w1 : (⟨2, ![K, J]⟩ : Shape).Idx → EReal)
    (b : Fin J → EReal) (p : Fin a) (q : Fin J) :
    chebReluArr z x tx w0 w1 b (ix2 p q) = relu z (cheb (rowOf x p) (rowOf tx p) w0 w1 b) q := rfl

theorem chebLogSoftmaxArr_ix2 (z : EReal) (x tx : (⟨2, ![a, K]⟩ : Shape).Idx → EReal) (w0 w1 : (⟨2, ![K, J]⟩ : Shape).Idx → EReal)
    (b : Fin J → EReal) (p : Fin a) (q : Fin J) :
    chebLogSoftmaxArr z x tx w0 w1 b (ix2 p q) = logSoftmax z (cheb (rowOf x p) (rowOf tx p) w0 w1 b) q := rfl

/-- An array whose every row is the rectified layer of the inputs' rows IS the hidden-layer array. -/
theorem eq_chebReluArr_of_rows (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ p : Fin a, rowOf A p = relu z (cheb (rowOf x p) (rowOf tx p) w0 w1 b)) : A = chebReluArr z x tx w0 w1 b :=
  funext fun i => (apply_eq_rowOf A i).trans (congrFun (hA (i 0)) (i 1))

/-- An array whose every entry is the log-softmax of the layer of the inputs' rows IS the output-layer array. -/
theorem eq_chebLogSoftmaxArr_of_entries (z : EReal) (x tx : (⟨2, ![a, K]⟩ : Shape).Idx → EReal) (w0 w1 : (⟨2, ![K, J]⟩ : Shape).Idx → EReal)
    (b : Fin J → EReal) (A : (⟨2, ![a, J]⟩ : Shape).Idx → EReal)
    (hA : ∀ (p : Fin a) (q : Fin J), A (ix2 p q) = logSoftmax z (cheb (rowOf x p) (rowOf tx p) w0 w1 b) q) :
    A = chebLogSoftmaxArr z x tx w0 w1 b :=
  funext fun i => (congrArg A (eq_ix2 i)).trans (hA (i 0) (i 1))

end Arrays

end Cert.ChebRows

end
-- ==== Proof.LibRowExtras.lean ====
/-
  More row readings of two-dimensional arrays over the extended reals, beside LibRowLayers:
  entry-by-entry maps (a product, tanh, exp, on the device and on the host) read on a row; a vector given a
  unit leading axis, read as its one row; and three arrays set side by side along the columns, read on a row
  as a join of a join.
-/
import proofs.«140932_j4320737099970_2_alg».proof.Proof.LibRowLayers

noncomputable section

namespace Cert.RowLayers

open Idealize.ShloMosaic Idealize.ShloMosaic.ValueIdx

/-- A vector [n] as a function of its one coordinate. -/
def vec {α : Type} {n : ℕ} (x : (⟨1, ![n]⟩ : Shape).Idx → α) : Fin n → α := fun j => x (ix1 j)

section Maps
variable {a b : ℕ} {φ : FTy}

/-- A product of arrays, on a row. -/
theorem rowOf_mulf (x y : FVec Ideal ⟨2, ![a, b]⟩ φ) (p : Fin a) : rowOf (mulf x y) p = fun j => rowOf x p j * rowOf y p j := rfl

/-- The device's tanh, on a row. -/
theorem rowOf_tanh (x : FVec Ideal ⟨2, ![a, b]⟩ φ) (p : Fin a) : rowOf (tanh x) p = fun j => Ideal.tanh (rowOf x p j) := rfl

/-- The device's exp, on a row. -/
theorem rowOf_exp (x : FVec Ideal ⟨2, ![a, b]⟩ φ) (p : Fin a) : rowOf (exp x) p = fun j => Ideal.exp (rowOf x p j) := rfl

/-- The host's tanh, on a row: the same function. -/
theorem rowOf_hostTanh (x : FVec Ideal ⟨2, ![a, b]⟩ φ) (p : Fin a) : rowOf (Host.tanh x) p = fun j => Ideal.tanh (rowOf x p j) := rfl

/-- The host's exp, on a row: the same function. -/
theorem rowOf_hostExp (x : FVec Ideal ⟨2, ![a, b]⟩ φ) (p : Fin a) : rowOf (Host.exp x) p = fun j => Ideal.exp (rowOf x p j) := rfl

/-- A splat scalar, on a row. -/
theorem rowOf_broadcast (z : Ideal φ) (p : Fin a) : rowOf (broadcast (⟨2, ![a, b]⟩ : Shape) z) p = fun _ => z := rfl

/-- A rank-0 constant broadcast over the array, on a row. -/
theorem rowOf_broadcastInDim_const {s : Shape} (w : BitVec φ.bits) (dims : Fin s.rank → Fin 2)
    (h : s.BroadcastsInDim ⟨2, ![a, b]⟩ dims) (p : Fin a) :
    rowOf (broadcastInDim ⟨2, ![a, b]⟩ dims h (constant (F := Ideal) s φ w)) p = fun _ => Ideal.ofBits φ w := rfl

end Maps

/-- A vector [n] viewed as [1, n]: its one row is the vector. -/
theorem rowOf_shapeCast_lead {α : Type} {n : ℕ} (x : (⟨1, ![n]⟩ : Shape).Idx → α)
    (h : (⟨1, ![n]⟩ : Shape).ShapeCasts ⟨2, ![1, n]⟩) : rowOf (shapeCast ⟨2, ![1, n]⟩ x h) 0 = vec x :=
  funext fun j => shapeCast_a_1a_apply x h 0 j

/-- Three arrays concatenated along the columns: each row is the three rows side by side. -/
theorem rowOf_concat3_cols {α : Type} {a A B C E D : ℕ} (x : (⟨2, ![a, A]⟩ : Shape).Idx → α) (y : (⟨2, ![a, B]⟩ : Shape).Idx → α)
    (z : (⟨2, ![a, C]⟩ : Shape).Idx → α)
    (h : Shape.Concatenates [(⟨2, ![a, A]⟩ : Shape), ⟨2, ![a, B]⟩, ⟨2, ![a, C]⟩] ⟨2, ![a, D]⟩ 1) (hE : E = A + B) (hD : D = E + C) (p : Fin a) :
    rowOf (concatenate ⟨2, ![a, D]⟩ 1 [⟨⟨2, ![a, A]⟩, x⟩, ⟨⟨2, ![a, B]⟩, y⟩, ⟨⟨2, ![a, C]⟩, z⟩] h) p
      = join hD (join hE (rowOf x p) (rowOf y p)) (rowOf z p) := by
  funext k
  show concatenate ⟨2, ![a, D]⟩ 1 [⟨⟨2, ![a, A]⟩, x⟩, ⟨⟨2, ![a, B]⟩, y⟩, ⟨⟨2, ![a, C]⟩, z⟩] h (ix2 p k) = _
  unfold join
  by_cases hk : k.val < E
  · rw [dif_pos hk]
    by_cases hk' : k.val < A
    · rw [dif_pos hk']
      exact concatenate_apply_piece 1 [⟨⟨2, ![a, A]⟩, x⟩, ⟨⟨2, ![a, B]⟩, y⟩, ⟨⟨2, ![a, C]⟩, z⟩] h (ix2 p k) 0 (by show 0 < 3; omega) _ x rfl rfl 0 rfl (ix2 p ⟨k.val, hk'⟩)
        (fun ax hne => by
          match ax with
          | ⟨0, _⟩ => rfl
          | ⟨1, _⟩ => exact absurd rfl hne)
        (by show 0 + k.val = k.val; omega)
    · rw [dif_neg hk']
      exact concatenate_apply_piece 1 [⟨⟨2, ![a, A]⟩, x⟩, ⟨⟨2, ![a, B]⟩, y⟩, ⟨⟨2, ![a, C]⟩, z⟩] h (ix2 p k) 1 (by show 1 < 3; omega) _ y rfl rfl A rfl (ix2 p ⟨k.val - A, by omega⟩)
        (fun ax hne => by
          match ax with
          | ⟨0, _⟩ => rfl
          | ⟨1, _⟩ => exact absurd rfl hne)
        (by show A + (k.val - A) = k.val; omega)
  · rw [dif_neg hk]
    exact concatenate_apply_piece 1 [⟨⟨2, ![a, A]⟩, x⟩, ⟨⟨2, ![a, B]⟩, y⟩, ⟨⟨2, ![a, C]⟩, z⟩] h (ix2 p k) 2 (by show 2 < 3; omega) _ z rfl rfl E (by subst hE; rfl) (ix2 p ⟨k.val - E, by have := k.isLt; omega⟩)
      (fun ax hne => by
        match ax with
        | ⟨0, _⟩ => rfl
        | ⟨1, _⟩ => exact absurd rfl hne)
      (by show E + (k.val - E) = k.val; omega)

end Cert.RowLayers

end
-- ==== Proof.KernelRow.lean ====
/-
  What one grid point's body stores, read row by row.

  The body works on a block of 1024 points (the rows of its first operand) with the whole weights beside it:
  the two columns u, v of the first weight matrix and the first bias as rows [1, 1024], the second weight matrix
  transposed [1024, 512], the second bias and the head's weights as rows [1, 512], the head's bias [1, 1]. Row p of
  what it stores is the network's three outputs at the point (s, t) = row p of the block: every operation of the body
  is either entry by entry, a broadcast of a row or a column, a product of a row with the weight matrix, or a sum
  along a row, and each is read on row p below.
-/
import proofs.«140932_j4320737099970_2_alg».proof.Proof.Gen.KernelIdeal.Frame
import proofs.«140932_j4320737099970_2_alg».proof.Proof.Network
import proofs.«140932_j4320737099970_2_alg».proof.Proof.LibChebRows
import proofs.«140932_j4320737099970_2_alg».proof.Proof.LibRowExtras
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Gen Idealize.ShloMosaic Idealize.ShloMosaic.ValueIdx
open Cert.RowLayers Cert.ChebRows Cert.ColumnBroadcast Cert.DerivNet

theorem hz : (![0, 0] : Fin 2 → Nat) = fun _ => 0 := funext fun a => by fin_cases a <;> rfl

/-- The product of the body contracts the columns of its left operand with the rows of its right operand. -/
theorem rowsTimesCols : RowsTimesCols dot_S1024x1024_S1024x512_S1024x512_1_0_0_1_n_n where
  rank := rfl
  size := rfl
  lhs0 i q := by
    unfold DotDims.lhsIdx
    rw [dif_neg (show ¬(0 : Fin S1024x1024.rank) ∈ dot_S1024x1024_S1024x512_S1024x512_1_0_0_1_n_n.lhsBatch by decide), dif_pos (show (0 : Fin S1024x1024.rank) ∈ dot_S1024x1024_S1024x512_S1024x512_1_0_0_1_n_n.lhsNonContracting by decide)]
    rfl
  lhs1 i q := dot_S1024x1024_S1024x512_S1024x512_1_0_0_1_n_n.lhsIdx_val_of_single rfl i q
  rhs0 i q := dot_S1024x1024_S1024x512_S1024x512_1_0_0_1_n_n.rhsIdx_val_of_single rfl i q
  rhs1 i q := by
    unfold DotDims.rhsIdx
    rw [dif_neg (show ¬(1 : Fin S1024x512.rank) ∈ dot_S1024x1024_S1024x512_S1024x512_1_0_0_1_n_n.rhsBatch by decide), dif_pos (show (1 : Fin S1024x512.rank) ∈ dot_S1024x1024_S1024x512_S1024x512_1_0_0_1_n_n.rhsNonContracting by decide)]
    rfl

section
variable (x0 : Vec Ideal S1024x2 .f32) (x1 x2 x3 : Vec Ideal S1x1024 .f32) (x4 : Vec Ideal S1024x512 .bf16)
  (x5 x6 : Vec Ideal S1x512 .f32) (x7 : Vec Ideal S1x1 .f32) (p : Fin 1024)

/-- The one store of the body covers its whole buffer, and every load reads a whole buffer: what the buffer holds
    afterwards is the stored value, as a function of the loaded blocks. -/
theorem out_eq : out0_8 (F := Ideal) x0 x1 x2 x3 x4 x5 x6 x7
    = k0_pay1 (k0_pay2 x1) (k0_pay3 x2) (k0_pay4 x4) x6 (k0_pay5 x7) (k0_pay7 x0 x1 x2 x3) (k0_pay9 x0 x1 x2 x3 x4 x5) (k0_pay10 x0 x1 x2 x3 x4 x5 x6) := by
  unfold out0_8
  rw [View.canon_unit_zero hz]
  simp only [View.ld_unit_zero (S := S1024x2) hz, View.ld_unit_zero (S := S1x1024) hz, View.ld_unit_zero (S := S1024x512) hz,
    View.ld_unit_zero (S := S1x512) hz, View.ld_unit_zero (S := S1x1) hz]

/-- Row p of the first hidden layer: tanh of s · u + t · v + b, (s, t) row p of the block of points. -/
theorem row_hidden1 : rowOf (k0_pay6 (F := Ideal) x0 x1 x2 x3) p
    = hidden1 (x0 (ix2 p 0)) (x0 (ix2 p 1)) (rowOf x1 0) (rowOf x2 0) (rowOf x3 0) := by
  funext j
  unfold k0_pay6 k0_pay2 k0_pay3
  simp only [shapeCast_self]
  show Ideal.tanh (broadcastTo S1024x1024 (extractStridedSlice S1024x1 ![0, 0] x0 _) _ (ix2 p j) * broadcastTo S1024x1024 x1 _ (ix2 p j)
      + broadcastTo S1024x1024 (extractStridedSlice S1024x1 ![0, 1] x0 _) _ (ix2 p j) * broadcastTo S1024x1024 x2 _ (ix2 p j)
      + broadcastTo S1024x1024 x3 _ (ix2 p j)) = _
  rw [broadcastTo_a1_ab_apply, broadcastTo_a1_ab_apply, broadcastTo_1b_ab_apply, broadcastTo_1b_ab_apply, broadcastTo_1b_ab_apply,
    slice2_axis1_eq, slice2_axis1_eq]
  rfl

/-- Row p of the first layer's slopes. -/
theorem row_slope1 : rowOf (k0_pay7 (F := Ideal) x0 x1 x2 x3) p
    = fun j => slope (pre1 (x0 (ix2 p 0)) (x0 (ix2 p 1)) (rowOf x1 0) (rowOf x2 0) (rowOf x3 0) j) := by
  funext j
  unfold k0_pay7
  show Ideal.ofBits .f32 0x3F800000#32 - rowOf (k0_pay6 (F := Ideal) x0 x1 x2 x3) p j * rowOf (k0_pay6 (F := Ideal) x0 x1 x2 x3) p j = _
  rw [row_hidden1, ofBits_one]
  rfl

/-- Row p of the second hidden layer. -/
theorem row_hidden2 : rowOf (k0_pay8 (F := Ideal) x0 x1 x2 x3 x4 x5) p
    = hidden2 (x0 (ix2 p 0)) (x0 (ix2 p 1)) (rowOf x1 0) (rowOf x2 0) (rowOf x3 0) (fun j q => x4 (ix2 j q)) (rowOf x5 0) := by
  unfold k0_pay8 k0_pay4
  simp only [shapeCast_self]
  rw [rowOf_tanh, rowOf_dense_device rowsTimesCols, rowOf_truncf, row_hidden1]
  rfl

/-- Row p of the second layer's slopes. -/
theorem row_slope2 : rowOf (k0_pay9 (F := Ideal) x0 x1 x2 x3 x4 x5) p
    = fun q => slope (pre2 (hidden1 (x0 (ix2 p 0)) (x0 (ix2 p 1)) (rowOf x1 0) (rowOf x2 0) (rowOf x3 0)) (fun j q => x4 (ix2 j q)) (rowOf x5 0) q) := by
  funext q
  unfold k0_pay9
  show Ideal.ofBits .f32 0x3F800000#32 - rowOf (k0_pay8 (F := Ideal) x0 x1 x2 x3 x4 x5) p q * rowOf (k0_pay8 (F := Ideal) x0 x1 x2 x3 x4 x5) p q = _
  rw [row_hidden2, ofBits_one]
  rfl

/-- Row p of the second hidden layer weighted by the head's weights. -/
theorem row_weighted : rowOf (k0_pay10 (F := Ideal) x0 x1 x2 x3 x4 x5 x6) p
    = fun q => hidden2 (x0 (ix2 p 0)) (x0 (ix2 p 1)) (rowOf x1 0) (rowOf x2 0) (rowOf x3 0) (fun j q => x4 (ix2 j q)) (rowOf x5 0) q * rowOf x6 0 q := by
  unfold k0_pay10
  dsimp only
  rw [rowOf_mulf, rowOf_broadcastTo, row_hidden2]

end

/-! ## The stored value, from the rows -/

section
variable (v2 v4 : FVec Ideal S1x1024 .f32) (v8 : FVec Ideal S1024x512 .bf16) (v11 : Vec Ideal S1x512 .f32) (v13 : FVec Ideal S1x1 .f32)
  (v28 : FVec Ideal S1024x1024 .f32) (v36 v38 : FVec Ideal S1024x512 .f32) (p : Fin 1024)

/-- A derivative column of the stored value at row p: the slopes of the first layer times a column d of the first
    weights go through the second weights, are scaled by the slopes of the second layer and by the head's weights, and
    are summed along the row. -/
theorem lane_sum_chain (d : FVec Ideal S1x1024 .f32) :
    (∑ q : Fin 512, (mulf (mulf v36 (matmul dot_S1024x1024_S1024x512_S1024x512_1_0_0_1_n_n none
        (truncf .bf16 (mulf v28 (broadcastTo S1024x1024 d broadcasts_S1x1024_S1024x1024)) bitsLt_bf16_f32) v8
        (constant (F := Ideal) S1024x512 .f32 0x00000000#32)))
        (broadcastTo S1024x512 v11 broadcasts_S1x512_S1024x512)) (ix2 p q))
      = chain (rowOf v28 p) (rowOf d 0) (fun j q => v8 (ix2 j q)) (rowOf v36 p) (rowOf v11 0) := by
  unfold chain
  refine Finset.sum_congr rfl fun q _ => ?_
  show v36 (ix2 p q) * rowOf (matmul dot_S1024x1024_S1024x512_S1024x512_1_0_0_1_n_n none
        (truncf .bf16 (mulf v28 (broadcastTo S1024x1024 d broadcasts_S1x1024_S1024x1024)) bitsLt_bf16_f32) v8
        (constant (F := Ideal) S1024x512 .f32 0x00000000#32)) p q
      * broadcastTo S1024x512 v11 broadcasts_S1x512_S1024x512 (ix2 p q) = _
  rw [rowOf_matmul_zero rowsTimesCols, broadcastTo_1b_ab_apply, rowOf_truncf, rowOf_mulf, rowOf_broadcastTo]
  rfl

/-- The stored value at (p, c): the head's weighted row sum plus its bias, and the two derivative columns, the first
    coordinate's with its sign changed (0 − g is −g). -/
theorem pay1_apply (c : Fin 3) : k0_pay1 (F := Ideal) v2 v4 v8 v11 v13 v28 v36 v38 (ix2 p c)
    = ![(∑ q : Fin 512, v38 (ix2 p q)) + v13 (ix2 0 0),
        chain (rowOf v28 p) (rowOf v4 0) (fun j q => v8 (ix2 j q)) (rowOf v36 p) (rowOf v11 0),
        -(chain (rowOf v28 p) (rowOf v2 0) (fun j q => v8 (ix2 j q)) (rowOf v36 p) (rowOf v11 0))] c := by
  unfold k0_pay1
  dsimp only
  refine (congrFun (rowOf_concat3_cols (A := 1) (B := 1) (C := 1) (E := 2) (D := 3) _ _ _ _ rfl rfl p) c).trans ?_
  fin_cases c
  · show addf (shapeCast S1024x1 (multiReduction .add [1] S1024 v38 0x00000000#32 reduces_S1024x512_S1024 (.inl rfl) rfl) shapeCasts_S1024_S1024x1)
        (broadcastTo S1024x1 v13 broadcasts_S1x1_S1024x1) (ix2 p (0 : Fin 1)) = _
    rw [addf_apply]
    refine congrArg₂ (· + ·) ((shapeCast_a_a1_apply _ shapeCasts_S1024_S1024x1 p 0).trans
      (multiReduction_add_row _ 0x00000000#32 reduces_S1024x512_S1024 (.inl rfl) rfl p)) ?_
    exact broadcastTo_1b_ab_apply v13 broadcasts_S1x1_S1024x1 p 0
  · show shapeCast S1024x1 (multiReduction .add [1] S1024 _ 0x00000000#32 reduces_S1024x512_S1024 (.inl rfl) rfl) shapeCasts_S1024_S1024x1 (ix2 p (0 : Fin 1)) = _
    refine (shapeCast_a_a1_apply _ shapeCasts_S1024_S1024x1 p 0).trans ?_
    refine (multiReduction_add_row _ 0x00000000#32 reduces_S1024x512_S1024 (.inl rfl) rfl p).trans ?_
    exact lane_sum_chain (v8 := v8) (v11 := v11) (v28 := v28) (v36 := v36) (p := p) (d := v4)
  · show subf (broadcast S1024x1 (Scalar.ofBits (F := Ideal) .f32 0x00000000#32))
        (shapeCast S1024x1 (multiReduction .add [1] S1024 _ 0x00000000#32 reduces_S1024x512_S1024 (.inl rfl) rfl) shapeCasts_S1024_S1024x1) (ix2 p (0 : Fin 1)) = _
    rw [subf_apply]
    refine (congrArg (fun y => Ideal.ofBits .f32 0x00000000#32 - y) ((shapeCast_a_a1_apply _ shapeCasts_S1024_S1024x1 p 0).trans
      ((multiReduction_add_row _ 0x00000000#32 reduces_S1024x512_S1024 (.inl rfl) rfl p).trans
        (lane_sum_chain (v8 := v8) (v11 := v11) (v28 := v28) (v36 := v36) (p := p) (d := v2))))).trans ?_
    show Ideal.ofBits .f32 0x00000000#32 - _ = -_
    rw [Ideal.ofBits_zero_f32, sub_eq_add_neg, zero_add]

end

/-! ## One grid point's store -/

/-- Entry (p, c) of what the body stores: output c of the network at the point given by row p of the block, with the
    weights read off the resident operands. -/
theorem out_apply (x0 : Vec Ideal S1024x2 .f32) (x1 x2 x3 : Vec Ideal S1x1024 .f32) (x4 : Vec Ideal S1024x512 .bf16)
    (x5 x6 : Vec Ideal S1x512 .f32) (x7 : Vec Ideal S1x1 .f32) (p : Fin 1024) (c : Fin 3) :
    out0_8 (F := Ideal) x0 x1 x2 x3 x4 x5 x6 x7 (ix2 p c)
      = outputs (x0 (ix2 p 0)) (x0 (ix2 p 1)) (rowOf x1 0) (rowOf x2 0) (rowOf x3 0) (fun j q => x4 (ix2 j q)) (rowOf x5 0) (rowOf x6 0)
          (x7 (ix2 0 0)) c := by
  rw [out_eq, pay1_apply]
  unfold k0_pay2 k0_pay3 k0_pay4 k0_pay5
  simp only [shapeCast_self]
  rw [row_slope1, row_slope2]
  have hw := row_weighted x0 x1 x2 x3 x4 x5 x6 p
  have hs : (∑ q : Fin 512, k0_pay10 (F := Ideal) x0 x1 x2 x3 x4 x5 x6 (ix2 p q))
      = ∑ q : Fin 512, hidden2 (x0 (ix2 p 0)) (x0 (ix2 p 1)) (rowOf x1 0) (rowOf x2 0) (rowOf x3 0) (fun j q => x4 (ix2 j q)) (rowOf x5 0) q * rowOf x6 0 q :=
    Finset.sum_congr rfl fun q _ => congrFun hw q
  rw [hs]
  rfl

end Cert.KernelIdeal.Block

end
-- ==== Proof.Operands.lean ====
/-
  The operands the host hands to the grid, read off the argument arrays.

  Before the grid runs the host slices the first weight matrix [1024, 2] into its two columns and lays each out as
  a row [1, 1024], lays the biases out as rows, transposes the second weight matrix, and views the head's bias as
  [1, 1]. Entry by entry: row-operand j is the matrix at (j, column), the transposed matrix at (j, q) is the matrix
  at (q, j), and a vector viewed as a row keeps its entries.
-/
import proofs.«140932_j4320737099970_2_alg».proof.Proof.Gen.KernelIdeal.Frame
import proofs.«140932_j4320737099970_2_alg».proof.Proof.LibRowLayers
import Idealize.ShloMosaic.Lib.Pipeline.Value
import Idealize.ShloMosaic.Lib.ValueIdx
import Idealize.ShloMosaic.Lib.ValueLayout
import Idealize.ShloMosaic.Lib.StableHlo.Run

noncomputable section

namespace Cert.KernelIdeal.Operands

open Cert.KernelIdeal Cert.KernelIdeal.Gen Idealize.ShloMosaic Idealize.ShloMosaic.TcCoe Idealize.SL.Sem Idealize.ShloMosaic.StableHlo
open Idealize.ShloMosaic.ValueIdx Cert.RowLayers

/-- An [a, 1] column viewed as a vector [a] reads, at i, the column at (i, 0). -/
theorem shapeCast_a1_a_apply {α : Type} {a : ℕ} (x : (⟨2, ![a, 1]⟩ : Shape).Idx → α)
    (h : (⟨2, ![a, 1]⟩ : Shape).ShapeCasts ⟨1, ![a]⟩) (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

variable (m : (ℓ : Loc nD τ sig) → Buf (Elt Ideal) ℓ) (c : Dev nD)

/-- The first operand row: column 0 of the first weight matrix. -/
theorem row_u : rowOf (V m c main_v2 : S1x1024.Idx → EReal) 0 = fun j => m ((c : Thread nD τ).loc main_arg1) (ix2 j (0 : Fin 2)) := by
  have e : (V m c main_v2 : S1x1024.Idx → EReal) = shapeCast S1x1024 (shapeCast S1024 (extractStridedSlice S1024x1 ![0, 0]
      (m ((c : Thread nD τ).loc main_arg1)) slices_S1024x2_S1024x1_0_0) shapeCasts_S1024x1_S1024) shapeCasts_S1024_S1x1024 := by
    show StableHlo.after hostOps0 (fun b => m (c, b)) (Proc.devRef .tc main_v2) = _
    after_results
    rfl
  rw [e]
  funext j
  refine (shapeCast_a_1a_apply _ shapeCasts_S1024_S1x1024 0 j).trans ?_
  refine (shapeCast_a1_a_apply _ shapeCasts_S1024x1_S1024 j).trans ?_
  exact slice2_axis1_eq 0 _ slices_S1024x2_S1024x1_0_0 j 0

/-- The second operand row: column 1 of the first weight matrix. -/
theorem row_v : rowOf (V m c main_v5 : S1x1024.Idx → EReal) 0 = fun j => m ((c : Thread nD τ).loc main_arg1) (ix2 j (1 : Fin 2)) := by
  have e : (V m c main_v5 : S1x1024.Idx → EReal) = shapeCast S1x1024 (shapeCast S1024 (extractStridedSlice S1024x1 ![0, 1]
      (m ((c : Thread nD τ).loc main_arg1)) slices_S1024x2_S1024x1_0_1) shapeCasts_S1024x1_S1024) shapeCasts_S1024_S1x1024 := by
    show StableHlo.after hostOps0 (fun b => m (c, b)) (Proc.devRef .tc main_v5) = _
    after_results
    rfl
  rw [e]
  funext j
  refine (shapeCast_a_1a_apply _ shapeCasts_S1024_S1x1024 0 j).trans ?_
  refine (shapeCast_a1_a_apply _ shapeCasts_S1024x1_S1024 j).trans ?_
  exact slice2_axis1_eq 1 _ slices_S1024x2_S1024x1_0_1 j 0

/-- The third operand row: the first bias. -/
theorem row_b : rowOf (V m c main_v6 : S1x1024.Idx → EReal) 0 = fun j => m ((c : Thread nD τ).loc main_arg2) (ix1 j) := by
  have e : (V m c main_v6 : S1x1024.Idx → EReal) = shapeCast S1x1024 (m ((c : Thread nD τ).loc main_arg2)) shapeCasts_S1024_S1x1024 := by
    show StableHlo.after hostOps0 (fun b => m (c, b)) (Proc.devRef .tc main_v6) = _
    after_results
    rfl
  rw [e]
  funext j
  exact shapeCast_a_1a_apply _ shapeCasts_S1024_S1x1024 0 j

/-- The resident matrix: the second weight matrix transposed (its change of float format is the identity). -/
theorem mat_w (j : Fin 1024) (q : Fin 512) :
    (V m c main_v8 : S1024x512.Idx → EReal) (ix2 j q) = m ((c : Thread nD τ).loc main_arg3) (ix2 q j) := by
  have e : (V m c main_v8 : S1024x512.Idx → EReal) = truncf (F := Ideal) .bf16 (transpose S1024x512 [1, 0]
      (m ((c : Thread nD τ).loc main_arg3)) transposes_S512x1024_S1024x512_1_0) bitsLt_bf16_f32 := by
    show StableHlo.after hostOps0 (fun b => m (c, b)) (Proc.devRef .tc main_v8) = _
    after_results
  rw [e]
  exact transpose_ix2_apply _ transposes_S512x1024_S1024x512_1_0 j q

/-- The second bias as a row. -/
theorem row_c : rowOf (V m c main_v9 : S1x512.Idx → EReal) 0 = fun q => m ((c : Thread nD τ).loc main_arg4) (ix1 q) := by
  have e : (V m c main_v9 : S1x512.Idx → EReal) = shapeCast S1x512 (m ((c : Thread nD τ).loc main_arg4)) shapeCasts_S512_S1x512 := by
    show StableHlo.after hostOps0 (fun b => m (c, b)) (Proc.devRef .tc main_v9) = _
    after_results
    rfl
  rw [e]
  funext q
  exact shapeCast_a_1a_apply _ shapeCasts_S512_S1x512 0 q

/-- The head's bias viewed as [1, 1]. -/
theorem elt_e : (V m c main_v10 : S1x1.Idx → EReal) (ix2 (0 : Fin 1) (0 : Fin 1)) = m ((c : Thread nD τ).loc main_arg6) (ix1 (0 : Fin 1)) := by
  have e : (V m c main_v10 : S1x1.Idx → EReal) = shapeCast S1x1 (m ((c : Thread nD τ).loc main_arg6)) shapeCasts_S1_S1x1 := by
    show StableHlo.after hostOps0 (fun b => m (c, b)) (Proc.devRef .tc main_v10) = _
    after_results
    rfl
  rw [e]
  exact shapeCast_a_1a_apply _ shapeCasts_S1_S1x1 0 0

end Cert.KernelIdeal.Operands

end
-- ==== Proof.KernelArray.lean ====
/-
  From the grid's blocks to the whole result array.

  Grid point t works on rows 1024·t … 1024·t + 1023 of the array of points and writes the same rows of the result;
  the weights are resident, the same at every point. So what point t writes back is rows 1024·t … of ONE array: the
  network applied to every row of the array of points. The 64 blocks tile the 65536 rows, hence the result array,
  after the grid, is that array.
-/
import proofs.«140932_j4320737099970_2_alg».proof.Proof.Gen.KernelIdeal.Frame
import proofs.«140932_j4320737099970_2_alg».proof.Proof.KernelRow
import proofs.«140932_j4320737099970_2_alg».proof.Proof.Operands
import Idealize.ShloMosaic.Lib.Pipeline.Value
import Idealize.ShloMosaic.Lib.ValueIdx

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Cert.RowLayers Cert.DerivNet
open Idealize.ShloMosaic.Pipeline (Dat)

/-- A block of 1024 points whose rows are rows of the array of points, beside operands that are the network's
    weights: its stored value at (p, q) is the network on the array of points at (r, q), r the row that p is. -/
theorem block_entry {K : ℕ} (X : (⟨2, ![K, 2]⟩ : Shape).Idx → EReal) (x0 : Vec Ideal S1024x2 .f32) (x1 x2 x3 : Vec Ideal S1x1024 .f32)
    (x4 : Vec Ideal S1024x512 .bf16) (x5 x6 : Vec Ideal S1x512 .f32) (x7 : Vec Ideal S1x1 .f32)
    (u v b : Fin 1024 → EReal) (w : Fin 1024 → Fin 512 → EReal) (cc a : Fin 512 → EReal) (e : EReal)
    (r : Fin K) (p : Fin 1024) (q : Fin 3)
    (h0 : ∀ k : Fin 2, x0 (ix2 p k) = X (ix2 r k)) (h1 : rowOf x1 0 = u) (h2 : rowOf x2 0 = v) (h3 : rowOf x3 0 = b)
    (h4 : (fun j q => x4 (ix2 j q)) = w) (h5 : rowOf x5 0 = cc) (h6 : rowOf x6 0 = a) (h7 : x7 (ix2 0 0) = e) :
    out0_8 (F := Ideal) x0 x1 x2 x3 x4 x5 x6 x7 (ix2 p q) = onPoints X u v b w cc a e (ix2 r q) := by
  rw [Block.out_apply, h0 0, h0 1, h1, h2, h3, h4, h5, h6, h7]
  rfl

variable (m : (ℓ : Loc nD τ sig) → Buf (Elt Ideal) ℓ) (c : Dev nD)

/-- The network applied to every row of the array of points, with the weights as the grid finds them. -/
def G : S65536x3.Idx → EReal :=
  onPoints (V m c main_arg0 : S65536x2.Idx → EReal) (rowOf (V m c main_v2 : S1x1024.Idx → EReal) 0)
    (rowOf (V m c main_v5 : S1x1024.Idx → EReal) 0) (rowOf (V m c main_v6 : S1x1024.Idx → EReal) 0)
    (fun j q => (V m c main_v8 : S1024x512.Idx → EReal) (ix2 j q)) (rowOf (V m c main_v9 : S1x512.Idx → EReal) 0)
    (rowOf (V m c main_arg5 : S1x512.Idx → EReal) 0) ((V m c main_v10 : S1x1.Idx → EReal) (ix2 0 0))

/-- The printed index maps, decided over the grid: the block of points and the block of results move together, one
    block of rows per grid point, and every other operand stays at its one block. -/
theorem idx_facts : ∀ t : Fin cfg0.N,
    win0_0.index t (0 : Fin 2) = t.val ∧ win0_0.index t (1 : Fin 2) = 0
    ∧ win0_8.index t (0 : Fin 2) = t.val ∧ win0_8.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0 :=
  (by decide +kernel : ∀ t : Fin grid0.N, _)

/-- What grid point t writes back is block t of G. -/
theorem flushed_eq (t : Fin cfg0.N) :
    (dats m 0 c).flushed 8 t = ((cfg0.win 8).blk t).view.read (Elt Ideal) (G m c) := by
  show (cfg0.win 8).cut (grid0.coords t) ((dats m 0 c).after 8 t) = _
  rw [after0_8]
  obtain ⟨a00, a01, a80, a81, a10, a11, a20, a21, a30, a31, a40, a41, a50, a51, a60, a61, a70, a71⟩ := idx_facts t
  have ht : t.val < 64 := lt_of_lt_of_eq t.isLt N_0
  refine funext fun (y : S1024x3.Idx) => ?_
  obtain ⟨p, q, rfl⟩ : ∃ (p : Fin 1024) (q : Fin 3), y = ix2 p q := ⟨y 0, y 1, eq_ix2 y⟩
  have hemb : ((cfg0.win 8).blk t).view.emb (ix2 p q) = ix2 (⟨t.val * 1024 + p.val, by omega⟩ : Fin 65536) q := by
    funext ax; apply Fin.ext
    match ax with
    | ⟨0, _⟩ => show win0_8.index t (0 : Fin 2) * 1024 + 1 * p.val = t.val * 1024 + p.val; omega
    | ⟨1, _⟩ => show win0_8.index t (1 : Fin 2) * 3 + 1 * q.val = q.val; omega
  show out0_8 (F := Ideal) (iblk m c 0 t) (iblk m c 1 t) (iblk m c 2 t) (iblk m c 3 t) (iblk m c 4 t) (iblk m c 5 t) (iblk m c 6 t) (iblk m c 7 t) (ix2 p q)
    = G m c (((cfg0.win 8).blk t).view.emb (ix2 p q))
  rw [hemb]
  unfold G
  refine block_entry _ (iblk m c 0 t) (iblk m c 1 t) (iblk m c 2 t) (iblk m c 3 t) (iblk m c 4 t) (iblk m c 5 t) (iblk m c 6 t) (iblk m c 7 t)
    _ _ _ _ _ _ _ _ p q ?_ ?_ ?_ ?_ ?_ ?_ ?_ ?_
  · intro k
    show V m c main_arg0 (((cfg0.win 0).blk t).view.emb (ix2 p k)) = V m c main_arg0 _
    refine congrArg (V m c main_arg0) (funext fun ax => Fin.ext ?_)
    match ax with
    | ⟨0, _⟩ => show win0_0.index t (0 : Fin 2) * 1024 + 1 * p.val = t.val * 1024 + p.val; omega
    | ⟨1, _⟩ => show win0_0.index t (1 : Fin 2) * 2 + 1 * k.val = k.val; omega
  · funext j
    show V m c main_v2 (((cfg0.win 1).blk t).view.emb (ix2 (0 : Fin 1) j)) = V m c main_v2 _
    refine congrArg (V m c main_v2) (funext fun ax => Fin.ext ?_)
    match ax with
    | ⟨0, _⟩ => show win0_1.index t (0 : Fin 2) * 1 + 1 * 0 = 0; omega
    | ⟨1, _⟩ => show win0_1.index t (1 : Fin 2) * 1024 + 1 * j.val = j.val; omega
  · funext j
    show V m c main_v5 (((cfg0.win 2).blk t).view.emb (ix2 (0 : Fin 1) j)) = V m c main_v5 _
    refine congrArg (V m c main_v5) (funext fun ax => Fin.ext ?_)
    match ax with
    | ⟨0, _⟩ => show win0_2.index t (0 : Fin 2) * 1 + 1 * 0 = 0; omega
    | ⟨1, _⟩ => show win0_2.index t (1 : Fin 2) * 1024 + 1 * j.val = j.val; omega
  · funext j
    show V m c main_v6 (((cfg0.win 3).blk t).view.emb (ix2 (0 : Fin 1) j)) = V m c main_v6 _
    refine congrArg (V m c main_v6) (funext fun ax => Fin.ext ?_)
    match ax with
    | ⟨0, _⟩ => show win0_3.index t (0 : Fin 2) * 1 + 1 * 0 = 0; omega
    | ⟨1, _⟩ => show win0_3.index t (1 : Fin 2) * 1024 + 1 * j.val = j.val; omega
  · funext j k
    show V m c main_v8 (((cfg0.win 4).blk t).view.emb (ix2 j k)) = V m c main_v8 _
    refine congrArg (V m c main_v8) (funext fun ax => Fin.ext ?_)
    match ax with
    | ⟨0, _⟩ => show win0_4.index t (0 : Fin 2) * 1024 + 1 * j.val = j.val; omega
    | ⟨1, _⟩ => show win0_4.index t (1 : Fin 2) * 512 + 1 * k.val = k.val; omega
  · funext j
    show V m c main_v9 (((cfg0.win 5).blk t).view.emb (ix2 (0 : Fin 1) j)) = V m c main_v9 _
    refine congrArg (V m c main_v9) (funext fun ax => Fin.ext ?_)
    match ax with
    | ⟨0, _⟩ => show win0_5.index t (0 : Fin 2) * 1 + 1 * 0 = 0; omega
    | ⟨1, _⟩ => show win0_5.index t (1 : Fin 2) * 512 + 1 * j.val = j.val; omega
  · funext j
    show V m c main_arg5 (((cfg0.win 6).blk t).view.emb (ix2 (0 : Fin 1) j)) = V m c main_arg5 _
    refine congrArg (V m c main_arg5) (funext fun ax => Fin.ext ?_)
    match ax with
    | ⟨0, _⟩ => show win0_6.index t (0 : Fin 2) * 1 + 1 * 0 = 0; omega
    | ⟨1, _⟩ => show win0_6.index t (1 : Fin 2) * 512 + 1 * j.val = j.val; omega
  · show V m c main_v10 (((cfg0.win 7).blk t).view.emb (ix2 (0 : Fin 1) (0 : Fin 1))) = V m c main_v10 _
    refine congrArg (V m c main_v10) (funext fun ax => Fin.ext ?_)
    match ax with
    | ⟨0, _⟩ => show win0_7.index t (0 : Fin 2) * 1 + 1 * 0 = 0; omega
    | ⟨1, _⟩ => show win0_7.index t (1 : Fin 2) * 1 + 1 * 0 = 0; omega

/-- An index of the result array is in point t's block iff its row is one of the block's 1024 rows. -/
theorem mem_blk (t : Fin cfg0.N) (i : S65536x3.Idx) :
    i ∈ ((cfg0.win 8).blk t).view.set ↔ ∀ a : Fin 2, win0_8.index t a * S1024x3.size a ≤ (i a).val ∧ (i a).val < win0_8.index t a * S1024x3.size a + S1024x3.size a := by
  show i ∈ ((View.whole main_v11).slice (win0_8.rect t)).set ↔ _
  rw [View.set_slice_whole, Rect.mem_set_unit]
  exact Iff.rfl

/-- Row r of the result array is written by grid point r / 1024. -/
theorem cover (i : S65536x3.Idx) : ∃ t : Fin cfg0.N, (cfg0.win 8).flush t = true ∧ i ∈ ((cfg0.win 8).blk t).view.set := by
  have hi0 : (i 0).val < 65536 := (i 0).isLt
  have hi1 : (i 1).val < 3 := (i 1).isLt
  have hN : cfg0.N = 64 := N_0
  let t : Fin cfg0.N := ⟨(i 0).val / 1024, by rw [hN]; omega⟩
  have htv : t.val = (i 0).val / 1024 := rfl
  obtain ⟨a00, a01, a80, a81, -⟩ := idx_facts t
  refine ⟨t, flush0_8 t, ?_⟩
  rw [mem_blk]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 3 ≤ (i 1).val ∧ (i 1).val < win0_8.index t (1 : Fin 2) * 3 + 3; omega

/-- The result array after the grid is G. -/
theorem final : (dats m 0 c).arrAt 8 cfg0.N = G m c :=
  (dats m 0 c).arrAt_eq_of_cover 8 (G m c) (fun t _ => flushed_eq m c t) (cover)

/-- G from the argument arrays: the weights read off the operands the host prepared. -/
theorem G_eq : G m c = onPoints (m ((c : Thread nD τ).loc main_arg0))
    (fun j => m ((c : Thread nD τ).loc main_arg1) (ix2 j (0 : Fin 2))) (fun j => m ((c : Thread nD τ).loc main_arg1) (ix2 j (1 : Fin 2)))
    (fun j => m ((c : Thread nD τ).loc main_arg2) (ix1 j)) (fun j q => m ((c : Thread nD τ).loc main_arg3) (ix2 q j))
    (fun q => m ((c : Thread nD τ).loc main_arg4) (ix1 q)) (rowOf (m ((c : Thread nD τ).loc main_arg5)) 0)
    (m ((c : Thread nD τ).loc main_arg6) (ix1 (0 : Fin 1))) := by
  unfold G
  have hw : (fun (j : Fin 1024) (q : Fin 512) => (V m c main_v8 : S1024x512.Idx → EReal) (ix2 j q))
      = fun j q => m ((c : Thread nD τ).loc main_arg3) (ix2 q j) := funext fun j => funext fun q => Operands.mat_w m c j q
  rw [hw, Operands.row_u, Operands.row_v, Operands.row_b, Operands.row_c, Operands.elt_e, V_main_arg0, V_main_arg5]

end Cert.KernelIdeal.Whole

end
-- ==== Proof.Results.lean ====
/-
  The three result arrays of the network on the argument arrays.

  The program's arguments are an array of points [N, 2], the first weight matrix [K, 2] with its bias [K], the second
  weight matrix [J, K] with its bias [J], and the head's weights [1, J] with its bias [1]. Its three results are
  the columns of the [N, 3] array of outputs, each an [N, 1] array: the value, the derivative along the second
  coordinate, and minus the derivative along the first.
-/
import proofs.«140932_j4320737099970_2_alg».proof.Proof.Network
import Idealize.ShloMosaic.Lib.ValueIdx

noncomputable section

namespace Cert.DerivNet

open Idealize.ShloMosaic Idealize.ShloMosaic.ValueIdx

/-- Column k of an [N, 3] array, as an [N, 1] array. -/
def column {N : ℕ} (Y : (⟨2, ![N, 3]⟩ : Shape).Idx → EReal) (k : Fin 3) : (⟨2, ![N, 1]⟩ : Shape).Idx → EReal :=
  fun i => Y (ix2 (i 0) k)

/-- The [N, 3] array of outputs, from the argument arrays: column k of the first weight matrix is d/d(coordinate k)
    of the first pre-activation, and the second weight matrix is read transposed. -/
def outputArray {N K J : ℕ} (X : (⟨2, ![N, 2]⟩ : Shape).Idx → EReal) (W1 : (⟨2, ![K, 2]⟩ : Shape).Idx → EReal)
    (b1 : (⟨1, ![K]⟩ : Shape).Idx → EReal) (W2 : (⟨2, ![J, K]⟩ : Shape).Idx → EReal) (b2 : (⟨1, ![J]⟩ : Shape).Idx → EReal)
    (W3 : (⟨2, ![1, J]⟩ : Shape).Idx → EReal) (b3 : (⟨1, ![1]⟩ : Shape).Idx → EReal) : (⟨2, ![N, 3]⟩ : Shape).Idx → EReal :=
  onPoints X (fun j => W1 (ix2 j (0 : Fin 2))) (fun j => W1 (ix2 j (1 : Fin 2))) (fun j => b1 (ix1 j)) (fun j q => W2 (ix2 q j))
    (fun q => b2 (ix1 q)) (fun q => W3 (ix2 (0 : Fin 1) q)) (b3 (ix1 (0 : Fin 1)))

/-- Entry (n, k) of the array of outputs. -/
theorem outputArray_apply {N K J : ℕ} (X : (⟨2, ![N, 2]⟩ : Shape).Idx → EReal) (W1 : (⟨2, ![K, 2]⟩ : Shape).Idx → EReal)
    (b1 : (⟨1, ![K]⟩ : Shape).Idx → EReal) (W2 : (⟨2, ![J, K]⟩ : Shape).Idx → EReal) (b2 : (⟨1, ![J]⟩ : Shape).Idx → EReal)
    (W3 : (⟨2, ![1, J]⟩ : Shape).Idx → EReal) (b3 : (⟨1, ![1]⟩ : Shape).Idx → EReal) (n : Fin N) (k : Fin 3) :
    outputArray X W1 b1 W2 b2 W3 b3 (ix2 n k)
      = outputs (X (ix2 n (0 : Fin 2))) (X (ix2 n (1 : Fin 2))) (fun j => W1 (ix2 j (0 : Fin 2))) (fun j => W1 (ix2 j (1 : Fin 2)))
          (fun j => b1 (ix1 j)) (fun j q => W2 (ix2 q j)) (fun q => b2 (ix1 q)) (fun q => W3 (ix2 (0 : Fin 1) q)) (b3 (ix1 (0 : Fin 1))) k := rfl

end Cert.DerivNet

end
-- ==== Proof.KernelRun.lean ====
/-
  The idealized kernel's run, with its three results named.

  After the grid the host cuts the [65536, 3] result array into its three columns. The grid left the network's
  array of outputs there (rows tiled by the 64 blocks), so the three results are the columns of that array, as
  functions of the argument arrays; the arguments end as they began.
-/
import proofs.«140932_j4320737099970_2_alg».proof.Proof.Gen.KernelIdeal.Frame
import proofs.«140932_j4320737099970_2_alg».proof.Proof.KernelArray
import proofs.«140932_j4320737099970_2_alg».proof.Proof.Results
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Outcome

open Cert.KernelIdeal Cert.KernelIdeal.Gen Idealize.ShloMosaic Idealize.ShloMosaic.TcCoe Idealize.SL.Sem Idealize.ShloMosaic.StableHlo
open Idealize.ShloMosaic.ValueIdx Cert.RowLayers Cert.DerivNet
open Idealize.ShloMosaic.Pipeline (Dat)

/-- A one-column slice of an [N, 3] array, from column o, is that column. -/
theorem slice_column {N : ℕ} (Y : (⟨2, ![N, 3]⟩ : Shape).Idx → EReal) (o : ℕ) (ho : o < 3)
    (h : (⟨2, ![N, 3]⟩ : Shape).Slices ![0, o] ⟨2, ![N, 1]⟩) :
    extractStridedSlice ⟨2, ![N, 1]⟩ ![0, o] Y h = column Y ⟨o, ho⟩ := by
  funext i
  obtain ⟨a, j, rfl⟩ : ∃ (a : Fin N) (j : Fin 1), i = ix2 a j := ⟨i 0, i 1, eq_ix2 i⟩
  refine (slice2_axis1_eq o Y h a j).trans ?_
  show Y (ix2 a _) = Y (ix2 a ⟨o, ho⟩)
  refine congrArg (fun k => Y (ix2 a k)) (Fin.ext ?_)
  show o + j.val = o
  have := j.isLt
  omega

variable (m : (ℓ : Loc nD τ sig) → Buf (Elt Ideal) ℓ) (c : Dev nD)

/-- The array of outputs of the network on this core's argument arrays. -/
abbrev outs : S65536x3.Idx → EReal :=
  outputArray (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The result array after the grid is the array of outputs. -/
theorem array_eq : (dats m 0 c).arrAt 8 cfg0.N = outs m c :=
  (Whole.final m c).trans (Whole.G_eq m c)

/-- The result array as the host's last lines find it. -/
theorem tail_array : Pipeline.withArrays spec0 c (V0 m c) (fun w => (dats m 0 c).arrAt w cfg0.N) (Proc.devRef .tc main_v11) = outs m c :=
  (Pipeline.withArrays_arr spec0 launch0.win.arr_inj c _ _ 8).trans (array_eq m c)

/-- The first result: column 0 of the array of outputs. -/
theorem result0 : Pipeline.afterTail₀ cfgs (dats m) 0 (V0 m) [hostOps1] c main_v12 = column (outs m c) 0 := by
  unfold Pipeline.afterTail₀
  show StableHlo.after hostOps1 _ (Proc.devRef .tc main_v12) = _
  after_results
  exact (congrArg (fun A => extractStridedSlice S65536x1 ![0, 0] A slices_S65536x3_S65536x1_0_0) (tail_array m c)).trans
    (slice_column _ 0 (by omega) _)

/-- The second result: column 1. -/
theorem result1 : Pipeline.afterTail₀ cfgs (dats m) 0 (V0 m) [hostOps1] c main_v13 = column (outs m c) 1 := by
  unfold Pipeline.afterTail₀
  show StableHlo.after hostOps1 _ (Proc.devRef .tc main_v13) = _
  after_results
  exact (congrArg (fun A => extractStridedSlice S65536x1 ![0, 1] A slices_S65536x3_S65536x1_0_1) (tail_array m c)).trans
    (slice_column _ 1 (by omega) _)

/-- The third result: column 2. -/
theorem result2 : Pipeline.afterTail₀ cfgs (dats m) 0 (V0 m) [hostOps1] c main_v14 = column (outs m c) 2 := by
  unfold Pipeline.afterTail₀
  show StableHlo.after hostOps1 _ (Proc.devRef .tc main_v14) = _
  after_results
  exact (congrArg (fun A => extractStridedSlice S65536x1 ![0, 2] A slices_S65536x3_S65536x1_0_2) (tail_array m c)).trans
    (slice_column _ 2 (by omega) _)

/-- The run: every weakly fair execution ends with the three results at the columns of the array of outputs and the
    arguments as they were. -/
theorem run (ρ : Dev nD → PrngReg) :
    θ_run defs (onTc (τ := τ) (main (F := Ideal))) ⟨m, fun _ => 0, ρ⟩ (fun r => ∀ c : Dev nD,
      r.2.mem ((c.tc : Thread nD τ).loc main_v12) = column (outs m c) 0
      ∧ r.2.mem ((c.tc : Thread nD τ).loc main_v13) = column (outs m c) 1
      ∧ r.2.mem ((c.tc : Thread nD τ).loc main_v14) = column (outs m c) 2
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v12 (Pipeline.mem_restRefs_of main_v12 (by decide) (by decide))).trans (result0 m c),
      ((h c).2 main_v13 (Pipeline.mem_restRefs_of main_v13 (by decide) (by decide))).trans (result1 m c),
      ((h c).2 main_v14 (Pipeline.mem_restRefs_of main_v14 (by decide) (by decide))).trans (result2 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      ((h c).1 6).trans (((dats m 0 c).arrAt_in 6 rfl _).trans ((A_eq m c 6).trans (V_main_arg5 m c))),
      (((h c).2 main_arg6 (Pipeline.mem_restRefs_of main_arg6 (by decide) (by decide))).trans (W_main_arg6 m (dats m) c))⟩)
    (run_main m ρ)

end Cert.KernelIdeal.Outcome

end
-- ==== Proof.Reference.lean ====
/-
  The reference's three results are the columns of the network's array of outputs.

  The reference computes the forward pass with rows as points (three matrix products, each with its bias, tanh
  between them) and the derivative chain with columns as points: it transposes the two pre-activations, takes the
  slope of tanh there as 4 / (e^(−h) + e^h)², scales by a column of the first weights, multiplies by the second
  weight matrix and the head's weights from the left, and transposes back. Entry by entry these are the same sums
  as the network's value and derivatives: a product over two coordinates is the sum of its two terms, the two
  spellings of the slope agree on every extended real, and the factors of each product commute.
-/
import proofs.«140932_j4320737099970_2_alg».proof.Proof.Gen.ReferenceIdeal.Read
import proofs.«140932_j4320737099970_2_alg».proof.Proof.Results
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.DerivNet

/-- Two indices of a rank-2 shape with the same coordinates are equal (a division by 1 may stand in a coordinate). -/
local macro "idx2" : tactic =>
  `(tactic| (funext a; apply Fin.ext; match a with
      | ⟨0, _⟩ => (first | rfl | exact Nat.div_one _)
      | ⟨1, _⟩ => (first | rfl | exact Nat.div_one _)))
/-- The same for rank 1. -/
local macro "idx1" : tactic =>
  `(tactic| (funext a; apply Fin.ext; match a with
      | ⟨0, _⟩ => (first | rfl | exact Nat.div_one _)))

variable (x0 : (⟨S65536x2, .f32⟩ : BufTy).Contents (Elt Ideal)) (x1 : (⟨S1024x2, .f32⟩ : BufTy).Contents (Elt Ideal)) (x2 : (⟨S1024, .f32⟩ : BufTy).Contents (Elt Ideal)) (x3 : (⟨S512x1024, .f32⟩ : BufTy).Contents (Elt Ideal))
  (x4 : (⟨S512, .f32⟩ : BufTy).Contents (Elt Ideal)) (x5 : (⟨S1x512, .f32⟩ : BufTy).Contents (Elt Ideal)) (x6 : (⟨S1, .f32⟩ : BufTy).Contents (Elt Ideal)) (n : Fin 65536)

/-- The first layer's pre-activations at point n. -/
abbrev P1 : Fin 1024 → EReal :=
  pre1 (x0 (ix2 n (0 : Fin 2))) (x0 (ix2 n (1 : Fin 2))) (fun j => x1 (ix2 j (0 : Fin 2))) (fun j => x1 (ix2 j (1 : Fin 2))) (fun j => x2 (ix1 j))

/-- The first hidden row at point n. -/
abbrev H1 : Fin 1024 → EReal :=
  hidden1 (x0 (ix2 n (0 : Fin 2))) (x0 (ix2 n (1 : Fin 2))) (fun j => x1 (ix2 j (0 : Fin 2))) (fun j => x1 (ix2 j (1 : Fin 2))) (fun j => x2 (ix1 j))

/-- The second layer's pre-activations at point n. -/
abbrev P2 : Fin 512 → EReal := pre2 (H1 x0 x1 x2 n) (fun j q => x3 (ix2 q j)) (fun q => x4 (ix1 q))

/-! ## The forward pass -/

theorem stage_pre1 (j : Fin 1024) : val_main_v4 (F := Ideal) x0 x1 x2 (ix2 n j) = P1 x0 x1 x2 n j := by
  rw [val_main_v4_apply, val_main_v1_apply, val_main_v3_apply, val_main_v2_apply, Fin.sum_univ_two,
    val_main_v0_apply, val_main_v0_apply]
  have e1 : ∀ k : Fin 2, lidx_main_v1 (ix2 n j) k = ix2 n k := fun k => by idx2
  have e2 : ∀ k : Fin 2, idx_main_v0 (ridx_main_v1 (ix2 n j) k) = ix2 j k := fun k => by idx2
  have e3 : idx_main_v2 (idx_main_v3 (ix2 n j)) = ix1 j := by idx1
  rw [e1, e1, e2, e2, e3]
  rfl

theorem stage_hidden1 (j : Fin 1024) : val_main_v5 (F := Ideal) x0 x1 x2 (ix2 n j) = H1 x0 x1 x2 n j := by
  rw [val_main_v5_apply, stage_pre1]
  rfl

theorem stage_pre2 (q : Fin 512) : val_main_v10 (F := Ideal) x0 x1 x2 x3 x4 (ix2 n q) = P2 x0 x1 x2 x3 x4 n q := by
  rw [val_main_v10_apply, val_main_v7_apply, val_main_v9_apply, val_main_v8_apply]
  have e3 : idx_main_v8 (idx_main_v9 (ix2 n q)) = ix1 q := by idx1
  rw [e3]
  refine congrArg (· + x4 (ix1 q)) (Finset.sum_congr rfl fun k _ => ?_)
  have el : lidx_main_v7 (ix2 n q) k = ix2 n k := by idx2
  have er : idx_main_v6 (ridx_main_v7 (ix2 n q) k) = ix2 q k := by idx2
  rw [el, stage_hidden1, val_main_v6_apply, er]

theorem stage_hidden2 (q : Fin 512) : val_main_v11 (F := Ideal) x0 x1 x2 x3 x4 (ix2 n q)
    = hidden2 (x0 (ix2 n (0 : Fin 2))) (x0 (ix2 n (1 : Fin 2))) (fun j => x1 (ix2 j (0 : Fin 2))) (fun j => x1 (ix2 j (1 : Fin 2)))
        (fun j => x2 (ix1 j)) (fun j q => x3 (ix2 q j)) (fun q => x4 (ix1 q)) q := by
  rw [val_main_v11_apply, stage_pre2]
  rfl

/-- The first result at (n, 0): the network's value at point n. -/
theorem stage_value : val_main_v16 (F := Ideal) x0 x1 x2 x3 x4 x5 x6 (ix2 n (0 : Fin 1))
    = value (x0 (ix2 n (0 : Fin 2))) (x0 (ix2 n (1 : Fin 2))) (fun j => x1 (ix2 j (0 : Fin 2))) (fun j => x1 (ix2 j (1 : Fin 2)))
        (fun j => x2 (ix1 j)) (fun j q => x3 (ix2 q j)) (fun q => x4 (ix1 q)) (fun q => x5 (ix2 (0 : Fin 1) q)) (x6 (ix1 (0 : Fin 1))) := by
  rw [val_main_v16_apply, val_main_v13_apply, val_main_v15_apply, val_main_v14_apply]
  have e3 : idx_main_v14 (idx_main_v15 (ix2 n (0 : Fin 1))) = ix1 (0 : Fin 1) := by idx1
  rw [e3]
  refine congrArg (· + x6 (ix1 (0 : Fin 1))) (Finset.sum_congr rfl fun k _ => ?_)
  have el : lidx_main_v13 (ix2 n (0 : Fin 1)) k = ix2 n k := by idx2
  have er : idx_main_v12 (ridx_main_v13 (ix2 n (0 : Fin 1)) k) = ix2 (0 : Fin 1) k := by idx2
  rw [el, stage_hidden2, val_main_v12_apply, er]

/-! ## The slopes, with columns as points -/

theorem stage_slope1 (j : Fin 1024) : val_main_v25 (F := Ideal) x0 x1 x2 (ix2 j n) = slope (P1 x0 x1 x2 n j) := by
  rw [val_main_v25_apply, val_main_v24_apply, val_main_cst_apply, val_main_v23_apply, val_main_v22_apply, val_main_v19_apply,
    val_main_v18_apply, val_main_v17_apply, val_main_v21_apply, val_main_v20_apply]
  have e1 : idx_main_v17 (ix2 j n) = ix2 n j := by idx2
  have e2 : idx_main_v20 (ix2 j n) = ix2 n j := by idx2
  rw [e1, e2, stage_pre1]
  show Ideal.div (Ideal.ofBits .f32 0x40800000#32) ((Ideal.exp (-(P1 x0 x1 x2 n j)) + Ideal.exp (P1 x0 x1 x2 n j))
    * (Ideal.exp (-(P1 x0 x1 x2 n j)) + Ideal.exp (P1 x0 x1 x2 n j))) = _
  rw [ofBits_four]
  exact slope_eq _

theorem stage_slope2 (q : Fin 512) : val_main_v34 (F := Ideal) x0 x1 x2 x3 x4 (ix2 q n) = slope (P2 x0 x1 x2 x3 x4 n q) := by
  rw [val_main_v34_apply, val_main_v33_apply, val_main_cst_0_apply, val_main_v32_apply, val_main_v31_apply, val_main_v28_apply,
    val_main_v27_apply, val_main_v26_apply, val_main_v30_apply, val_main_v29_apply]
  have e1 : idx_main_v26 (ix2 q n) = ix2 n q := by idx2
  have e2 : idx_main_v29 (ix2 q n) = ix2 n q := by idx2
  rw [e1, e2, stage_pre2]
  show Ideal.div (Ideal.ofBits .f32 0x40800000#32) ((Ideal.exp (-(P2 x0 x1 x2 x3 x4 n q)) + Ideal.exp (P2 x0 x1 x2 x3 x4 n q))
    * (Ideal.exp (-(P2 x0 x1 x2 x3 x4 n q)) + Ideal.exp (P2 x0 x1 x2 x3 x4 n q))) = _
  rw [ofBits_four]
  exact slope_eq _

/-! ## The derivative along the first coordinate -/

theorem stage_scaled_u (j : Fin 1024) : val_main_v42 (F := Ideal) x0 x1 x2 (ix2 j n) = slope (P1 x0 x1 x2 n j) * x1 (ix2 j (0 : Fin 2)) := by
  rw [val_main_v42_apply, stage_slope1, val_main_v41_apply, val_main_v37_apply, val_main_v36_apply, val_main_v35_apply]
  have e : idx_main_v35 (idx_main_v36 (idx_main_v37 (idx_main_v41 (ix2 j n)))) = ix2 j (0 : Fin 2) := by idx2
  rw [e]
  rfl

theorem stage_through_u (q : Fin 512) : val_main_v44 (F := Ideal) x0 x1 x2 x3 x4 (ix2 q n)
    = slope (P2 x0 x1 x2 x3 x4 n q) * ∑ j : Fin 1024, x3 (ix2 q j) * (slope (P1 x0 x1 x2 n j) * x1 (ix2 j (0 : Fin 2))) := by
  rw [val_main_v44_apply, stage_slope2, val_main_v43_apply]
  refine congrArg (slope (P2 x0 x1 x2 x3 x4 n q) * ·) (Finset.sum_congr rfl fun k _ => ?_)
  have el : lidx_main_v43 (ix2 q n) k = ix2 q k := by idx2
  have er : ridx_main_v43 (ix2 q n) k = ix2 k n := by idx2
  rw [el, er, stage_scaled_u]

theorem stage_deriv_u : val_main_v46 (F := Ideal) x0 x1 x2 x3 x4 x5 (ix2 n (0 : Fin 1))
    = deriv (fun j => x1 (ix2 j (0 : Fin 2))) (x0 (ix2 n (0 : Fin 2))) (x0 (ix2 n (1 : Fin 2))) (fun j => x1 (ix2 j (0 : Fin 2)))
        (fun j => x1 (ix2 j (1 : Fin 2))) (fun j => x2 (ix1 j)) (fun j q => x3 (ix2 q j)) (fun q => x4 (ix1 q)) (fun q => x5 (ix2 (0 : Fin 1) q)) := by
  rw [val_main_v46_apply, val_main_v45_apply]
  refine Eq.trans (Finset.sum_congr rfl fun k _ => ?_) (chain_comm _ _ _ _ _)
  have el : lidx_main_v45 (idx_main_v46 (ix2 n (0 : Fin 1))) k = ix2 (0 : Fin 1) k := by idx2
  have er : ridx_main_v45 (idx_main_v46 (ix2 n (0 : Fin 1))) k = ix2 k n := by idx2
  rw [el, er, stage_through_u]

/-! ## The derivative along the second coordinate -/

theorem stage_scaled_v (j : Fin 1024) : val_main_v48 (F := Ideal) x0 x1 x2 (ix2 j n) = slope (P1 x0 x1 x2 n j) * x1 (ix2 j (1 : Fin 2)) := by
  rw [val_main_v48_apply, stage_slope1, val_main_v47_apply, val_main_v40_apply, val_main_v39_apply, val_main_v38_apply]
  have e : idx_main_v38 (idx_main_v39 (idx_main_v40 (idx_main_v47 (ix2 j n)))) = ix2 j (1 : Fin 2) := by idx2
  rw [e]
  rfl

theorem stage_through_v (q : Fin 512) : val_main_v50 (F := Ideal) x0 x1 x2 x3 x4 (ix2 q n)
    = slope (P2 x0 x1 x2 x3 x4 n q) * ∑ j : Fin 1024, x3 (ix2 q j) * (slope (P1 x0 x1 x2 n j) * x1 (ix2 j (1 : Fin 2))) := by
  rw [val_main_v50_apply, stage_slope2, val_main_v49_apply]
  refine congrArg (slope (P2 x0 x1 x2 x3 x4 n q) * ·) (Finset.sum_congr rfl fun k _ => ?_)
  have el : lidx_main_v49 (ix2 q n) k = ix2 q k := by idx2
  have er : ridx_main_v49 (ix2 q n) k = ix2 k n := by idx2
  rw [el, er, stage_scaled_v]

theorem stage_deriv_v : val_main_v52 (F := Ideal) x0 x1 x2 x3 x4 x5 (ix2 n (0 : Fin 1))
    = deriv (fun j => x1 (ix2 j (1 : Fin 2))) (x0 (ix2 n (0 : Fin 2))) (x0 (ix2 n (1 : Fin 2))) (fun j => x1 (ix2 j (0 : Fin 2)))
        (fun j => x1 (ix2 j (1 : Fin 2))) (fun j => x2 (ix1 j)) (fun j q => x3 (ix2 q j)) (fun q => x4 (ix1 q)) (fun q => x5 (ix2 (0 : Fin 1) q)) := by
  rw [val_main_v52_apply, val_main_v51_apply]
  refine Eq.trans (Finset.sum_congr rfl fun k _ => ?_) (chain_comm _ _ _ _ _)
  have el : lidx_main_v51 (idx_main_v52 (ix2 n (0 : Fin 1))) k = ix2 (0 : Fin 1) k := by idx2
  have er : ridx_main_v51 (idx_main_v52 (ix2 n (0 : Fin 1))) k = ix2 k n := by idx2
  rw [el, er, stage_through_v]

/-! ## The three results -/

/-- The first result is column 0 of the array of outputs. -/
theorem result0_eq : val_main_v16 (F := Ideal) x0 x1 x2 x3 x4 x5 x6 = column (outputArray x0 x1 x2 x3 x4 x5 x6) 0 := by
  refine funext fun (i : S65536x1.Idx) => ?_
  obtain ⟨n, u, rfl⟩ : ∃ (n : Fin 65536) (u : Fin 1), i = ix2 n u := ⟨i 0, i 1, eq_ix2 i⟩
  obtain rfl : u = 0 := Subsingleton.elim u 0
  exact (stage_value x0 x1 x2 x3 x4 x5 x6 n).trans rfl

/-- The second result is column 1. -/
theorem result1_eq : val_main_v52 (F := Ideal) x0 x1 x2 x3 x4 x5 = column (outputArray x0 x1 x2 x3 x4 x5 x6) 1 := by
  refine funext fun (i : S65536x1.Idx) => ?_
  obtain ⟨n, u, rfl⟩ : ∃ (n : Fin 65536) (u : Fin 1), i = ix2 n u := ⟨i 0, i 1, eq_ix2 i⟩
  obtain rfl : u = 0 := Subsingleton.elim u 0
  exact (stage_deriv_v x0 x1 x2 x3 x4 x5 n).trans rfl

/-- The third result is column 2: the negated derivative along the first coordinate. -/
theorem result2_eq : val_main_v53 (F := Ideal) x0 x1 x2 x3 x4 x5 = column (outputArray x0 x1 x2 x3 x4 x5 x6) 2 := by
  refine funext fun (i : S65536x1.Idx) => ?_
  obtain ⟨n, u, rfl⟩ : ∃ (n : Fin 65536) (u : Fin 1), i = ix2 n u := ⟨i 0, i 1, eq_ix2 i⟩
  obtain rfl : u = 0 := Subsingleton.elim u 0
  refine (val_main_v53_apply x0 x1 x2 x3 x4 x5 (ix2 n (0 : Fin 1))).trans ?_
  exact (congrArg (fun y : EReal => -y) (stage_deriv_u x0 x1 x2 x3 x4 x5 n)).trans rfl

end Cert.ReferenceIdeal.RefValue

end
-- ==== Proof.lean ====
/-
  A tanh network with two hidden layers on 65536 points of the plane, together with its two partial derivatives,
  computed by a grid kernel and by a plain reference; both, over the extended reals, produce the same three arrays.

  The kernel takes the points 1024 rows at a time with all weights resident: it forms the first pre-activation as
  s · u + t · v + b from the two columns u, v of the first weight matrix, applies tanh, multiplies by the transposed
  second weight matrix, applies tanh again and sums against the head's weights; for the derivatives it takes the
  slope of tanh as 1 − tanh², pushes the slopes times a first-layer column through the same matrix, scales by the
  second slopes and sums against the head's weights. It stores (value, ∂/∂t, 0 − ∂/∂s) as three columns, which the
  host then slices apart. The reference computes the same forward pass with matrix products, and the derivative
  chain with points as columns, taking the slope as 4 / (e^(−h) + e^h)² and multiplying by the weights from the left.

  Entry by entry the two agree: 1 − tanh² h = 4 / (e^(−h) + e^h)² at every extended real (both are 1 / cosh² on the
  reals and 0 at ±∞), a product over the two coordinates is the sum of its two terms, multiplication commutes,
  0 − g = −g, and a change of float format is the identity. No law used needs a finite operand, so the
  precondition is never opened. The three frames are the generated ones (the reference's is its generated run with
  the results dropped), and the idealization rewrote nothing, so there is nothing to preserve.
-/
import proofs.«140932_j4320737099970_2_alg».proof.Defs
import proofs.«140932_j4320737099970_2_alg».proof.Proof.Gen.Kernel
import proofs.«140932_j4320737099970_2_alg».proof.Proof.Gen.Kernel.Skeleton
import proofs.«140932_j4320737099970_2_alg».proof.Proof.Gen.Kernel.Launch
import proofs.«140932_j4320737099970_2_alg».proof.Proof.Gen.Kernel.Points
import proofs.«140932_j4320737099970_2_alg».proof.Proof.Gen.Kernel.Frame
import proofs.«140932_j4320737099970_2_alg».proof.Proof.Gen.KernelIdeal
import proofs.«140932_j4320737099970_2_alg».proof.Proof.Gen.KernelIdeal.Skeleton
import proofs.«140932_j4320737099970_2_alg».proof.Proof.Gen.KernelIdeal.Launch
import proofs.«140932_j4320737099970_2_alg».proof.Proof.Gen.KernelIdeal.Points
import proofs.«140932_j4320737099970_2_alg».proof.Proof.Gen.KernelIdeal.Frame
import proofs.«140932_j4320737099970_2_alg».proof.Proof.Gen.ReferenceIdeal
import proofs.«140932_j4320737099970_2_alg».proof.Proof.Gen.Pre_finite_inputs
import proofs.«140932_j4320737099970_2_alg».proof.Proof.Gen.ReferenceIdeal.Run
import proofs.«140932_j4320737099970_2_alg».proof.Proof.Gen.ReferenceIdeal.Read
import proofs.«140932_j4320737099970_2_alg».proof.Proof.KernelRun
import proofs.«140932_j4320737099970_2_alg».proof.Proof.Reference
import Idealize.ShloMosaic.Adequacy
import Idealize.ShloMosaic.Init

noncomputable section

namespace Cert.Proof

open Idealize.ShloMosaic Idealize.ShloMosaic.TcCoe Idealize.SL.Sem Cert.DerivNet

/-- The word-level kernel runs and keeps its arguments: the generated frame. -/
theorem frame_kernel [Cert.Kernel.Facts] [Cert.Pre_finite_inputs.Facts] : Cert.frame_Kernel :=
  fun m ρ _ => Cert.Kernel.Gen.frame m ρ

/-- The idealized kernel runs and keeps its arguments: the generated frame. -/
theorem frame_kernelIdeal [Cert.KernelIdeal.Facts] [Cert.Pre_finite_inputs.Facts] : Cert.frame_KernelIdeal :=
  fun m ρ _ => Cert.KernelIdeal.Gen.frame m ρ

/-- The reference runs and keeps its arguments: its generated run, the results dropped. -/
theorem frame_reference [Cert.ReferenceIdeal.Facts] [Cert.Pre_finite_inputs.Facts] : Cert.frame_ReferenceIdeal :=
  fun m ρ _ => (θ_run Cert.ReferenceIdeal.defs _ _).mono (fun _ h c => (h c).2.2.2)
    (Cert.ReferenceIdeal.Value.run (F := Ideal) m ρ)

/-- Both programs end with the three columns of the network's array of outputs on the (agreeing) arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => column (Cert.KernelIdeal.Outcome.outs m c) 0, fun c => column (Cert.KernelIdeal.Outcome.outs m c) 1,
    fun c => column (Cert.KernelIdeal.Outcome.outs m c) 2, Cert.KernelIdeal.Outcome.run m ρ, ?_⟩
  refine (θ_run Cert.ReferenceIdeal.defs _ _).mono (fun _ h c => ?_) (Cert.ReferenceIdeal.Value.run (F := Ideal) m' ρ')
  obtain ⟨h0, h1, h2, hargs⟩ := h c
  obtain ⟨a0, a1, a2, a3, a4, a5, a6⟩ := hagree c
  refine ⟨?_, ?_, ?_, hargs⟩
  · rw [h0, Cert.ReferenceIdeal.Read.val_main_v16_eq, Cert.ReferenceIdeal.RefValue.result0_eq, a0, a1, a2, a3, a4, a5, a6]
  · rw [h1, Cert.ReferenceIdeal.Read.val_main_v52_eq,
      Cert.ReferenceIdeal.RefValue.result1_eq (x6 := m' ((c.tc : Thread Cert.ReferenceIdeal.nD Cert.ReferenceIdeal.τ).loc Cert.ReferenceIdeal.main_arg6)),
      a0, a1, a2, a3, a4, a5, a6]
  · rw [h2, Cert.ReferenceIdeal.Read.val_main_v53_eq,
      Cert.ReferenceIdeal.RefValue.result2_eq (x6 := m' ((c.tc : Thread Cert.ReferenceIdeal.nD Cert.ReferenceIdeal.τ).loc Cert.ReferenceIdeal.main_arg6)),
      a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
